-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_v41) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x1024 : Shape := ⟨3, ![32, 512, 1024]⟩
abbrev S32x1024x1024 : Shape := ⟨3, ![32, 1024, 1024]⟩
abbrev S32x512 : Shape := ⟨2, ![32, 512]⟩
abbrev S32x1024 : Shape := ⟨2, ![32, 1024]⟩
abbrev S1024x1024 : Shape := ⟨2, ![1024, 1024]⟩
abbrev S1024 : Shape := ⟨1, ![1024]⟩
abbrev S_ : Shape := ⟨0, ![]⟩

class Facts : Prop where
  bcast_S_S32x512x1024 : S_.BroadcastsInDim S32x512x1024 (![] : Fin 0 → Fin S32x512x1024.rank)
  reducesTo_S32x512x1024_S_d0_1_2 : S32x512x1024.ReducesTo [0, 1, 2] S_
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_
  bcast_S_S32x512 : S_.BroadcastsInDim S32x512 (![] : Fin 0 → Fin S32x512.rank)
  reducesTo_S32x512_S_d0_1 : S32x512.ReducesTo [0, 1] S_
  bcast_S_S32x1024 : S_.BroadcastsInDim S32x1024 (![] : Fin 0 → Fin S32x1024.rank)
  reducesTo_S32x1024_S_d0_1 : S32x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1024x1024 .f32) (main_arg7 : FVec F S1024 .f32) (main_v13 : IVec S_ 1) (main_v16 : IVec S32x1024 1) : IVec S_ 1 :=
  let main_c_5 : IVec S_ 1 := constantI S_ 1 1#1
  let main_v17 : IVec S_ 1 := (fun x v => Host.reduce IntOp.andi x v reducesTo_S32x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S32x512x1024 .f32) (main_arg1 : FVec F S32x1024x1024 .f32) (main_arg2 : FVec F S32x512 .f32) (main_arg3 : FVec F S32x1024 .f32) (main_arg4 : FVec F S1024x1024 .f32) (main_arg5 : FVec F S1024 .f32) (main_arg6 : FVec F S1024x1024 .f32) (main_arg7 : FVec F S1024 .f32) : IVec S_ 1 :=
  let main_v0 : FVec F S32x512x1024 .f32 := Host.absf main_arg0
  let main_cst : FVec F S_ .f32 := constant S_ .f32 0x7F800000#32
  let main_v1 : FVec F S32x512x1024 .f32 := broadcastInDim S32x512x1024 ![] bcast_S_S32x512x1024 main_cst
  let main_v2 : IVec S32x512x1024 1 := cmpf .olt main_v0 main_v1
  let main_c : IVec S_ 1 := constantI S_ 1 1#1
  let main_v3 : IVec S_ 1 := (fun x v => Host.reduce IntOp.andi x v reducesTo_S32x512x1024_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_v9 : FVec F S32x512 .f32 := Host.absf main_arg2
  let main_cst_2 : FVec F S_ .f32 := constant S_ .f32 0x7F800000#32
  let main_v10 : FVec F S32x512 .f32 := broadcastInDim S32x512 ![] bcast_S_S32x512 main_cst_2
  let main_v11 : IVec S32x512 1 := cmpf .olt main_v9 main_v10
  let main_c_3 : IVec S_ 1 := constantI S_ 1 1#1
  let main_v12 : IVec S_ 1 := (fun x v => Host.reduce IntOp.andi x v reducesTo_S32x512_S_d0_1 h_S_) main_v11 main_c_3
  let main_v13 : IVec S_ 1 := andi main_v8 main_v12
  let main_v14 : FVec F S32x1024 .f32 := Host.absf main_arg3
  let main_cst_4 : FVec F S_ .f32 := constant S_ .f32 0x7F800000#32
  let main_v15 : FVec F S32x1024 .f32 := broadcastInDim S32x1024 ![] bcast_S_S32x1024 main_cst_4
  let main_v16 : IVec S32x1024 1 := cmpf .olt main_v14 main_v15
  fn_part1 (F := F) main_arg4 main_arg5 main_arg6 main_arg7 main_v13 main_v16
-- ==== Kernel.lean ====
abbrev S32x512x1024 : Shape := ⟨3, ![32, 512, 1024]⟩
abbrev S32x1024x1024 : Shape := ⟨3, ![32, 1024, 1024]⟩
abbrev S32x512 : Shape := ⟨2, ![32, 512]⟩
abbrev S32x1024 : Shape := ⟨2, ![32, 1024]⟩
abbrev S1024x1024 : Shape := ⟨2, ![1024, 1024]⟩
abbrev S1024 : Shape := ⟨1, ![1024]⟩
abbrev S1x1024 : Shape := ⟨2, ![1, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S32x1x512 : Shape := ⟨3, ![32, 1, 512]⟩
abbrev S32x1x1024 : Shape := ⟨3, ![32, 1, 1024]⟩
abbrev S32x1024x512 : Shape := ⟨3, ![32, 1024, 512]⟩
abbrev S1x1x512 : Shape := ⟨3, ![1, 1, 512]⟩
abbrev S1x1x1024 : Shape := ⟨3, ![1, 1, 1024]⟩
abbrev S1x1024x512 : Shape := ⟨3, ![1, 1024, 512]⟩
abbrev S1x512 : Shape := ⟨2, ![1, 512]⟩
abbrev S512x1 : Shape := ⟨2, ![512, 1]⟩
abbrev S512 : Shape := ⟨1, ![512]⟩
abbrev S1024x512 : Shape := ⟨2, ![1024, 512]⟩
abbrev S1024x1 : Shape := ⟨2, ![1024, 1]⟩

abbrev nBuf : Space → Nat
  | .hbm => 20
  | .vmem => 32
  | .smem => 0
  | _ => 0

abbrev bufTy : (tb : Table) → Fin (tcTables nBuf tb) → BufTy
  | .hbm, ⟨0, _⟩ => ⟨S32x512x1024, .f32⟩
  | .hbm, ⟨1, _⟩ => ⟨S32x1024x1024, .f32⟩
  | .hbm, ⟨2, _⟩ => ⟨S32x512, .f32⟩
  | .hbm, ⟨3, _⟩ => ⟨S32x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S32x512x1024, .bf16⟩
  | .hbm, ⟨11, _⟩ => ⟨S32x1024x1024, .bf16⟩
  | .hbm, ⟨12, _⟩ => ⟨S32x512x1024, .bf16⟩
  | .hbm, ⟨13, _⟩ => ⟨S32x1024x1024, .bf16⟩
  | .hbm, ⟨14, _⟩ => ⟨S32x1x512, .f32⟩
  | .hbm, ⟨15, _⟩ => ⟨S32x1x1024, .f32⟩
  | .hbm, ⟨16, _⟩ => ⟨S32x512x1024, .f32⟩
  | .hbm, ⟨17, _⟩ => ⟨S32x1024x1024, .f32⟩
  | .hbm, ⟨18, _⟩ => ⟨S32x512x1024, .f32⟩
  | .hbm, ⟨19, _⟩ => ⟨S32x1024x512, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .f32⟩
  | .local _ .vmem, ⟨3, _⟩ => ⟨S1x1024, .f32⟩
  | .local _ .vmem, ⟨4, _⟩ => ⟨S1x512x1024, .bf16⟩
  | .local _ .vmem, ⟨5, _⟩ => ⟨S1x512x1024, .bf16⟩
  | .local _ .vmem, ⟨6, _⟩ => ⟨S1x1024x1024, .f32⟩
  | .local _ .vmem, ⟨7, _⟩ => ⟨S1x1024x1024, .f32⟩
  | .local _ .vmem, ⟨8, _⟩ => ⟨S1024x1024, .f32⟩
  | .local _ .vmem, ⟨9, _⟩ => ⟨S1x1024, .f32⟩
  | .local _ .vmem, ⟨10, _⟩ => ⟨S1x1024x1024, .bf16⟩
  | .local _ .vmem, ⟨11, _⟩ => ⟨S1x1024x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x1024x1024, .bf16⟩
  | .local _ .vmem, ⟨19, _⟩ => ⟨S1x1024x1024, .bf16⟩
  | .local _ .vmem, ⟨20, _⟩ => ⟨S1x1x512, .f32⟩
  | .local _ .vmem, ⟨21, _⟩ => ⟨S1x1x512, .f32⟩
  | .local _ .vmem, ⟨22, _⟩ => ⟨S1x1x1024, .f32⟩
  | .local _ .vmem, ⟨23, _⟩ => ⟨S1x1x1024, .f32⟩
  | .local _ .vmem, ⟨24, _⟩ => ⟨S1x512x1024, .f32⟩
  | .local _ .vmem, ⟨25, _⟩ => ⟨S1x512x1024, .f32⟩
  | .local _ .vmem, ⟨26, _⟩ => ⟨S1x1024x1024, .f32⟩
  | .local _ .vmem, ⟨27, _⟩ => ⟨S1x1024x1024, .f32⟩
  | .local _ .vmem, ⟨28, _⟩ => ⟨S1x512x1024, .f32⟩
  | .local _ .vmem, ⟨29, _⟩ => ⟨S1x512x1024, .f32⟩
  | .local _ .vmem, ⟨30, _⟩ => ⟨S1x1024x512, .f32⟩
  | .local _ .vmem, ⟨31, _⟩ => ⟨S1x1024x512, .f32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg5_1 : Ref sig .tc := ⟨.vmem, 23, rfl⟩
abbrev cc2_stg6_0 : Ref sig .tc := ⟨.vmem, 24, rfl⟩
abbrev cc2_stg6_1 : Ref sig .tc := ⟨.vmem, 25, rfl⟩
abbrev cc2_stg7_0 : Ref sig .tc := ⟨.vmem, 26, rfl⟩
abbrev cc2_stg7_1 : Ref sig .tc := ⟨.vmem, 27, rfl⟩
abbrev cc2_stg8_0 : Ref sig .tc := ⟨.vmem, 28, rfl⟩
abbrev cc2_stg8_1 : Ref sig .tc := ⟨.vmem, 29, rfl⟩
abbrev cc2_stg9_0 : Ref sig .tc := ⟨.vmem, 30, rfl⟩
abbrev cc2_stg9_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21
abbrev cc2_sem5_0 : DmaSem sig := 22
abbrev cc2_sem5_1 : DmaSem sig := 23
abbrev cc2_sem6_0 : DmaSem sig := 24
abbrev cc2_sem6_1 : DmaSem sig := 25
abbrev cc2_sem7_0 : DmaSem sig := 26
abbrev cc2_sem7_1 : DmaSem sig := 27
abbrev cc2_sem8_0 : DmaSem sig := 28
abbrev cc2_sem8_1 : DmaSem sig := 29
abbrev cc2_sem9_0 : DmaSem sig := 30
abbrev cc2_sem9_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_9 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x1x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x512x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x1024x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x512x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1x1024x512 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  broadcasts_S1x1024_S1024x1024 : S1x1024.Broadcasts S1024x1024
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  shapeCasts_S32x512_S32x1x512 : S32x512.ShapeCasts S32x1x512
  shapeCasts_S32x1024_S32x1x1024 : S32x1024.ShapeCasts S32x1x1024
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  transposes_S1x512_p1_0_S512x1 : S1x512.Transposes [1, 0] S512x1
  broadcasts_S512x1_S512x1024 : S512x1.Broadcasts S512x1024
  reduces_S512x1024_S512 : S512x1024.Reduces [1] S512
  shapeCasts_S512_S512x1 : S512.ShapeCasts S512x1
  transposes_S512x1024_p1_0_S1024x512 : S512x1024.Transposes [1, 0] S1024x512
  reduces_S1024x512_S1024 : S1024x512.Reduces [1] S1024
  shapeCasts_S1024_S1024x1 : S1024.ShapeCasts S1024x1
  broadcasts_S1024x1_S1024x512 : S1024x1.Broadcasts S1024x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  dot_S512x1024_S1024x1024_S512x1024_1_1_0_0_n_n_wf : DotDims.WF S512x1024 S1024x1024 S512x1024 [1] [1] [0] [0] [] []
  dot_S1024x1024_S1024x1024_S1024x1024_1_1_0_0_n_n_wf : DotDims.WF S1024x1024 S1024x1024 S1024x1024 [1] [1] [0] [0] [] []
  dot_S512x1024_S1024x1024_S512x1024_1_0_0_1_n_n_wf : DotDims.WF S512x1024 S1024x1024 S512x1024 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S32x512x1024.size a
  hwx0_0 : ∀ i : grid0.Coords, EltTy.bits .f32 = 32 ∨ (Rect.block (s := S32x512x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S32x512x1024.size a
  hwx0_3 : ∀ i : grid0.Coords, EltTy.bits .bf16 = 32 ∨ (Rect.block (s := S32x512x1024) S1x512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S32x1024x1024.size a
  hwx1_0 : ∀ i : grid1.Coords, EltTy.bits .f32 = 32 ∨ (Rect.block (s := S32x1024x1024) S1x1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S32x1024x1024.size a
  hwx1_3 : ∀ i : grid1.Coords, EltTy.bits .bf16 = 32 ∨ (Rect.block (s := S32x1024x1024) S1x1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x1024.size a ≤ S32x512x1024.size a
  hwx2_0 : ∀ i : grid2.Coords, EltTy.bits .bf16 = 32 ∨ (Rect.block (s := S32x512x1024) S1x512x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x1024.size a ≤ S32x1024x1024.size a
  hwx2_1 : ∀ i : grid2.Coords, EltTy.bits .bf16 = 32 ∨ (Rect.block (s := S32x1024x1024) S1x1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512x1024.size a ≤ S32x512x1024.size a
  hwx2_2 : ∀ i : grid2.Coords, EltTy.bits .bf16 = 32 ∨ (Rect.block (s := S32x512x1024) S1x512x1024.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024x1024.size a ≤ S32x1024x1024.size a
  hwx2_3 : ∀ i : grid2.Coords, EltTy.bits .bf16 = 32 ∨ (Rect.block (s := S32x1024x1024) S1x1024x1024.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x512.size a ≤ S32x1x512.size a
  hwx2_4 : ∀ i : grid2.Coords, EltTy.bits .f32 = 32 ∨ (Rect.block (s := S32x1x512) S1x1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1x1024.size a ≤ S32x1x1024.size a
  hwx2_5 : ∀ i : grid2.Coords, EltTy.bits .f32 = 32 ∨ (Rect.block (s := S32x1x1024) S1x1x1024.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x512x1024.size a ≤ S32x512x1024.size a
  hwx2_6 : ∀ i : grid2.Coords, EltTy.bits .f32 = 32 ∨ (Rect.block (s := S32x512x1024) S1x512x1024.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x1024x1024.size a ≤ S32x1024x1024.size a
  hwx2_7 : ∀ i : grid2.Coords, EltTy.bits .f32 = 32 ∨ (Rect.block (s := S32x1024x1024) S1x1024x1024.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x512x1024.size a ≤ S32x512x1024.size a
  hwx2_8 : ∀ i : grid2.Coords, EltTy.bits .f32 = 32 ∨ (Rect.block (s := S32x512x1024) S1x512x1024.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S1x1024x512.size a ≤ S32x1024x512.size a
  hwx2_9 : ∀ i : grid2.Coords, EltTy.bits .f32 = 32 ∨ (Rect.block (s := S32x1024x512) S1x1024x512.size (cc2_transform_9 i) (hinb2_9 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S1x512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1x1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x512x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1x1024x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v6) S1x1x512.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v7) S1x1x1024.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v8_0) S1x512x1024.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v8_1) S1x1024x1024.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v8_2) S1x512x1024.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v8_3) S1x1024x512.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S32x512x1024 : Shape := ⟨3, ![32, 512, 1024]⟩
abbrev S32x1024x1024 : Shape := ⟨3, ![32, 1024, 1024]⟩
abbrev S32x512 : Shape := ⟨2, ![32, 512]⟩
abbrev S32x1024 : Shape := ⟨2, ![32, 1024]⟩
abbrev S1024x1024 : Shape := ⟨2, ![1024, 1024]⟩
abbrev S1024 : Shape := ⟨1, ![1024]⟩
abbrev S1x1x1024 : Shape := ⟨3, ![1, 1, 1024]⟩
abbrev S32x512x1 : Shape := ⟨3, ![32, 512, 1]⟩
abbrev S32x1x1024 : Shape := ⟨3, ![32, 1, 1024]⟩
abbrev S_ : Shape := ⟨0, ![]⟩
abbrev S32x1024x512 : Shape := ⟨3, ![32, 1024, 512]⟩
abbrev S32x1024x1 : Shape := ⟨3, ![32, 1024, 1]⟩

abbrev nBuf : Space → Nat
  | .hbm => 62
  | .vmem => 0
  | .smem => 0
  | _ => 0

abbrev bufTy : (tb : Table) → Fin (tcTables nBuf tb) → BufTy
  | .hbm, ⟨0, _⟩ => ⟨S32x512x1024, .f32⟩
  | .hbm, ⟨1, _⟩ => ⟨S32x1024x1024, .f32⟩
  | .hbm, ⟨2, _⟩ => ⟨S32x512, .f32⟩
  | .hbm, ⟨3, _⟩ => ⟨S32x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S32x512x1024, .f32⟩
  | .hbm, ⟨9, _⟩ => ⟨S1x1x1024, .f32⟩
  | .hbm, ⟨10, _⟩ => ⟨S32x512x1024, .f32⟩
  | .hbm, ⟨11, _⟩ => ⟨S32x512x1024, .f32⟩
  | .hbm, ⟨12, _⟩ => ⟨S32x512x1024, .f32⟩
  | .hbm, ⟨13, _⟩ => ⟨S32x1024x1024, .f32⟩
  | .hbm, ⟨14, _⟩ => ⟨S1x1x1024, .f32⟩
  | .hbm, ⟨15, _⟩ => ⟨S32x1024x1024, .f32⟩
  | .hbm, ⟨16, _⟩ => ⟨S32x1024x1024, .f32⟩
  | .hbm, ⟨17, _⟩ => ⟨S32x1024x1024, .f32⟩
  | .hbm, ⟨18, _⟩ => ⟨S32x512x1024, .f32⟩
  | .hbm, ⟨19, _⟩ => ⟨S32x512x1, .f32⟩
  | .hbm, ⟨20, _⟩ => ⟨S32x1x1024, .f32⟩
  | .hbm, ⟨21, _⟩ => ⟨S32x512x1024, .f32⟩
  | .hbm, ⟨22, _⟩ => ⟨S32x512x1024, .f32⟩
  | .hbm, ⟨23, _⟩ => ⟨S32x512x1024, .f32⟩
  | .hbm, ⟨24, _⟩ => ⟨S_, .f32⟩
  | .hbm, ⟨25, _⟩ => ⟨S32x512x1024, .f32⟩
  | .hbm, ⟨26, _⟩ => ⟨S32x512x1024, .i1⟩
  | .hbm, ⟨27, _⟩ => ⟨S_, .f32⟩
  | .hbm, ⟨28, _⟩ => ⟨S_, .f32⟩
  | .hbm, ⟨29, _⟩ => ⟨S32x512x1024, .f32⟩
  | .hbm, ⟨30, _⟩ => ⟨S32x512x1024, .f32⟩
  | .hbm, ⟨31, _⟩ => ⟨S_, .f32⟩
  | .hbm, ⟨32, _⟩ => ⟨S32x512, .f32⟩
  | .hbm, ⟨33, _⟩ => ⟨S_, .f32⟩
  | .hbm, ⟨34, _⟩ => ⟨S32x512, .f32⟩
  | .hbm, ⟨35, _⟩ => ⟨S32x512, .f32⟩
  | .hbm, ⟨36, _⟩ => ⟨S32x512x1, .f32⟩
  | .hbm, ⟨37, _⟩ => ⟨S32x512x1024, .f32⟩
  | .hbm, ⟨38, _⟩ => ⟨S32x512x1024, .f32⟩
  | .hbm, ⟨39, _⟩ => ⟨S32x512x1024, .f32⟩
  | .hbm, ⟨40, _⟩ => ⟨S_, .f32⟩
  | .hbm, ⟨41, _⟩ => ⟨S32x512, .f32⟩
  | .hbm, ⟨42, _⟩ => ⟨S32x512x1, .f32⟩
  | .hbm, ⟨43, _⟩ => ⟨S32x512x1024, .f32⟩
  | .hbm, ⟨44, _⟩ => ⟨S32x512x1024, .f32⟩
  | .hbm, ⟨45, _⟩ => ⟨S32x1024x512, .f32⟩
  | .hbm, ⟨46, _⟩ => ⟨S_, .f32⟩
  | .hbm, ⟨47, _⟩ => ⟨S32x1024, .f32⟩
  | .hbm, ⟨48, _⟩ => ⟨S_, .f32⟩
  | .hbm, ⟨49, _⟩ => ⟨S32x1024, .f32⟩
  | .hbm, ⟨50, _⟩ => ⟨S32x1024, .f32⟩
  | .hbm, ⟨51, _⟩ => ⟨S32x1024x1, .f32⟩
  | .hbm, ⟨52, _⟩ => ⟨S32x1024x512, .f32⟩
  | .hbm, ⟨53, _⟩ => ⟨S32x1024x512, .f32⟩
  | .hbm, ⟨54, _⟩ => ⟨S32x1024x512, .f32⟩
  | .hbm, ⟨55, _⟩ => ⟨S_, .f32⟩
  | .hbm, ⟨56, _⟩ => ⟨S32x1024, .f32⟩
  | .hbm, ⟨57, _⟩ => ⟨S32x1024x1, .f32⟩
  | .hbm, ⟨58, _⟩ => ⟨S32x1024x512, .f32⟩
  | .hbm, ⟨59, _⟩ => ⟨S32x1024x512, .f32⟩
  | .hbm, ⟨60, _⟩ => ⟨S32x512x1024, .f32⟩
  | .hbm, ⟨61, _⟩ => ⟨S32x1024x1024, .f32⟩
  | _, _ => ⟨S32x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S32x512x1024_0_1_2 : S1x1x1024.BroadcastsInDim S32x512x1024 (![0, 1, 2] : Fin 3 → Fin S32x512x1024.rank)
  bcast_S1x1x1024_S32x1024x1024_0_1_2 : S1x1x1024.BroadcastsInDim S32x1024x1024 (![0, 1, 2] : Fin 3 → Fin S32x1024x1024.rank)
  bcast_S32x512_S32x512x1_0_1 : S32x512.BroadcastsInDim S32x512x1 (![0, 1] : Fin 2 → Fin S32x512x1.rank)
  bcast_S32x1024_S32x1x1024_0_2 : S32x1024.BroadcastsInDim S32x1x1024 (![0, 2] : Fin 2 → Fin S32x1x1024.rank)
  bcast_S32x512x1_S32x512x1024_0_1_2 : S32x512x1.BroadcastsInDim S32x512x1024 (![0, 1, 2] : Fin 3 → Fin S32x512x1024.rank)
  bcast_S32x1x1024_S32x512x1024_0_1_2 : S32x1x1024.BroadcastsInDim S32x512x1024 (![0, 1, 2] : Fin 3 → Fin S32x512x1024.rank)
  bcast_S_S32x512x1024 : S_.BroadcastsInDim S32x512x1024 (![] : Fin 0 → Fin S32x512x1024.rank)
  reducesTo_S32x512x1024_S32x512_d2 : S32x512x1024.ReducesTo [2] S32x512
  h_S_ : 0 < S_.numel
  bcast_S_S32x512 : S_.BroadcastsInDim S32x512 (![] : Fin 0 → Fin S32x512.rank)
  transposes_S32x512x1024_S32x1024x512_0_2_1 : S32x512x1024.Transposes [0, 2, 1] S32x1024x512
  reducesTo_S32x1024x512_S32x1024_d2 : S32x1024x512.ReducesTo [2] S32x1024
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x512_0_1_2 : S32x1024x1.BroadcastsInDim S32x1024x512 (![0, 1, 2] : Fin 3 → Fin S32x1024x512.rank)
  dot_S32x512x1024_S1024x1024_S32x512x1024_2_1_01_0_n_n_wf : DotDims.WF S32x512x1024 S1024x1024 S32x512x1024 [2] [1] [0, 1] [0] [] []
  dot_S32x1024x1024_S1024x1024_S32x1024x1024_2_1_01_0_n_n_wf : DotDims.WF S32x1024x1024 S1024x1024 S32x1024x1024 [2] [1] [0, 1] [0] [] []
  dot_S32x512x1024_S32x1024x1024_S32x512x1024_2_2_1_1_0_0_wf : DotDims.WF S32x512x1024 S32x1024x1024 S32x512x1024 [2] [2] [1] [1] [0] [0]
  dot_S32x512x1024_S32x1024x1024_S32x512x1024_2_1_1_2_0_0_wf : DotDims.WF S32x512x1024 S32x1024x1024 S32x512x1024 [2] [1] [1] [2] [0] [0]
  dot_S32x1024x512_S32x512x1024_S32x1024x1024_2_1_1_2_0_0_wf : DotDims.WF S32x1024x512 S32x512x1024 S32x1024x1024 [2] [1] [1] [2] [0] [0]

variable [Facts₀]

def dot_S32x512x1024_S1024x1024_S32x512x1024_2_1_01_0_n_n : DotDims S32x512x1024 S1024x1024 S32x512x1024 where
  lhsContracting := [2]
  rhsContracting := [1]
  lhsNonContracting := [0, 1]
  rhsNonContracting := [0]
  lhsBatch := []
  rhsBatch := []
  wf := dot_S32x512x1024_S1024x1024_S32x512x1024_2_1_01_0_n_n_wf
def dot_S32x1024x1024_S1024x1024_S32x1024x1024_2_1_01_0_n_n : DotDims S32x1024x1024 S1024x1024 S32x1024x1024 where
  lhsContracting := [2]
  rhsContracting := [1]
  lhsNonContracting := [0, 1]
  rhsNonContracting := [0]
  lhsBatch := []
  rhsBatch := []
  wf := dot_S32x1024x1024_S1024x1024_S32x1024x1024_2_1_01_0_n_n_wf
def dot_S32x512x1024_S32x1024x1024_S32x512x1024_2_2_1_1_0_0 : DotDims S32x512x1024 S32x1024x1024 S32x512x1024 where
  lhsContracting := [2]
  rhsContracting := [2]
  lhsNonContracting := [1]
  rhsNonContracting := [1]
  lhsBatch := [0]
  rhsBatch := [0]
  wf := dot_S32x512x1024_S32x1024x1024_S32x512x1024_2_2_1_1_0_0_wf
def dot_S32x512x1024_S32x1024x1024_S32x512x1024_2_1_1_2_0_0 : DotDims S32x512x1024 S32x1024x1024 S32x512x1024 where
  lhsContracting := [2]
  rhsContracting := [1]
  lhsNonContracting := [1]
  rhsNonContracting := [2]
  lhsBatch := [0]
  rhsBatch := [0]
  wf := dot_S32x512x1024_S32x1024x1024_S32x512x1024_2_1_1_2_0_0_wf
def dot_S32x1024x512_S32x512x1024_S32x1024x1024_2_1_1_2_0_0 : DotDims S32x1024x512 S32x512x1024 S32x1024x1024 where
  lhsContracting := [2]
  rhsContracting := [1]
  lhsNonContracting := [1]
  rhsNonContracting := [2]
  lhsBatch := [0]
  rhsBatch := [0]
  wf := dot_S32x1024x512_S32x512x1024_S32x1024x1024_2_1_1_2_0_0_wf

class Facts : Prop extends Facts₀ where

variable [Facts]
-- ==== Proof.KernelRun.lean ====
/-
  The run of the idealized kernel program with its four result buffers named, and what each of its three
  regions finds in the buffers its windows read.

  The program is five segments: two reshapes on the host (argument 5 into v0, argument 7 into v1), region 0
  (reads argument 0, argument 4 and v0; writes v2), region 1 (reads argument 1, argument 6 and v1; writes v3),
  four host operations (argument 0 rounded to bf16 into v4, argument 1 rounded to bf16 into v5, argument 2
  reshaped into v6, argument 3 reshaped into v7), and region 2 (reads v2 … v7; writes the four results).
  The generated frame module names the buffer contents at each of the six boundaries (W0 … W5) and proves
  the run with a post about the arguments only. Here the same run is stated with a post that also reads the
  four results at the last boundary, where each is what region 2's write-backs leave of it; and each buffer
  a region reads is walked back through the boundaries to the launch memory: a segment that does not write a
  buffer leaves it as it was, a region leaves an array it only reads as it was entered, and a host operation
  leaves its result buffer at its function of its operand.
-/
import proofs.«148050_j57140244906000_2_alg».proof.Proof.Gen.KernelIdeal.Frame
import Idealize.ShloMosaic.Lib.StableHlo.Run
import Idealize.ShloMosaic.PureOps.Ideal

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The run, with the results read at the last boundary

At the last boundary every unscoped buffer holds `W5`; each result buffer is an output array of region 2
(its windows 6, 7, 8, 9), so `W5` there is what the region's write-backs leave of that array after the last
grid point; each argument is walked back to the launch memory by the generated module. -/

set_option backward.isDefEq.respectTransparency.types false in
theorem run_results : θ_run (defs (F := Ideal)) (onTc (τ := τ) (main (F := Ideal))) ⟨m, fun _ => 0, ρ⟩ (fun r => ∀ c : Dev nD,
      r.2.mem ((c.tc : Thread nD τ).loc main_v8_0) = (dat2 (V4 m ρ) c).arrAt 6 cfg2.N
      ∧ r.2.mem ((c.tc : Thread nD τ).loc main_v8_1) = (dat2 (V4 m ρ) c).arrAt 7 cfg2.N
      ∧ r.2.mem ((c.tc : Thread nD τ).loc main_v8_2) = (dat2 (V4 m ρ) c).arrAt 8 cfg2.N
      ∧ r.2.mem ((c.tc : Thread nD τ).loc main_v8_3) = (dat2 (V4 m ρ) c).arrAt 9 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R (F := Ideal) c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨(h c _ (mem_uc main_v8_0 (by decide))).trans (W5_arr m ρ c 6),
       (h c _ (mem_uc main_v8_1 (by decide))).trans (W5_arr m ρ c 7),
       (h c _ (mem_uc main_v8_2 (by decide))).trans (W5_arr m ρ c 8),
       (h c _ (mem_uc main_v8_3 (by decide))).trans (W5_arr m ρ c 9),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

/-! ## What a host stretch leaves of a buffer it does not write

The first stretch writes v0 and v1 only, the second v4, v5, v6 and v7 only: any other TensorCore buffer holds
after the stretch what it held before. -/

theorem hostOps0_keep (W : Valuation τ sig (Elt Ideal)) (b : Ref sig .tc) (h0 : b ≠ main_v0) (h1 : b ≠ main_v1) :
    StableHlo.after hostOps0 W (Proc.devRef .tc b) = W (Proc.devRef .tc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1⟩))

theorem hostOps2_keep (W : Valuation τ sig (Elt Ideal)) (b : Ref sig .tc) (h4 : b ≠ main_v4) (h5 : b ≠ main_v5)
    (h6 : b ≠ main_v6) (h7 : b ≠ main_v7) :
    StableHlo.after hostOps2 W (Proc.devRef .tc b) = W (Proc.devRef .tc b) :=
  StableHlo.after_of_forall_not_mem (b := Proc.devRef .tc b) _ _ (List.forall_iff_forall_mem.mp (by
    simp only [hostOps2, List.Forall, StableHlo.unary_writes, StableHlo.reshape_writes, Finset.mem_singleton]
    exact ⟨StableHlo.devRef_ne_of_ne h4, StableHlo.devRef_ne_of_ne h5, StableHlo.devRef_ne_of_ne h6,
      StableHlo.devRef_ne_of_ne h7⟩))

/-! ## What region 0 finds

Region 0 is entered after the first host stretch. Arguments 0 and 4 are not written by that stretch, so they
are as launched; v0 is the stretch's reshape of argument 5 to one row of 1024. -/

theorem V1_arg0 (c : Dev nD) : V1 m ρ c main_arg0 = m ((c.tc : Thread nD τ).loc main_arg0) :=
  hostOps0_keep (W0 m ρ c) main_arg0 (by decide) (by decide)

theorem V1_arg4 (c : Dev nD) : V1 m ρ c main_arg4 = m ((c.tc : Thread nD τ).loc main_arg4) :=
  hostOps0_keep (W0 m ρ c) main_arg4 (by decide) (by decide)

theorem V1_v0 (c : Dev nD) :
    V1 m ρ c main_v0 = shapeCast S1x1024 (m ((c.tc : Thread nD τ).loc main_arg5)) shapeCasts_S1024_S1x1024 := by
  show StableHlo.after hostOps0 (W0 m ρ c) (Proc.devRef .tc main_v0) = _
  dsimp only [hostOps0]
  after_results
  rfl

/-- After the first host stretch v1 is its reshape of argument 7 to one row of 1024. -/
theorem V1_v1 (c : Dev nD) :
    V1 m ρ c main_v1 = shapeCast S1x1024 (m ((c.tc : Thread nD τ).loc main_arg7)) shapeCasts_S1024_S1x1024 := by
  show StableHlo.after hostOps0 (W0 m ρ c) (Proc.devRef .tc main_v1) = _
  dsimp only [hostOps0]
  after_results
  rfl

/-! ## What region 1 finds

Region 1 is entered at region 0's exit. Region 0's arrays are argument 0, argument 4, v0 and v2: argument 1,
argument 6 and v1 are none of them, so they are as region 0 was entered, that is as after the first host
stretch. -/

theorem V2_arg1 (c : Dev nD) : V2 m ρ c main_arg1 = m ((c.tc : Thread nD τ).loc main_arg1) :=
  (W2_of_ne m ρ c main_arg1 (by decide)).trans (hostOps0_keep (W0 m ρ c) main_arg1 (by decide) (by decide))

theorem V2_arg6 (c : Dev nD) : V2 m ρ c main_arg6 = m ((c.tc : Thread nD τ).loc main_arg6) :=
  (W2_of_ne m ρ c main_arg6 (by decide)).trans (hostOps0_keep (W0 m ρ c) main_arg6 (by decide) (by decide))

theorem V2_v1 (c : Dev nD) :
    V2 m ρ c main_v1 = shapeCast S1x1024 (m ((c.tc : Thread nD τ).loc main_arg7)) shapeCasts_S1024_S1x1024 :=
  (W2_of_ne m ρ c main_v1 (by decide)).trans (V1_v1 m ρ c)

/-! ## Arguments 0 to 3 at region 1's exit

The second host stretch reads arguments 0, 1, 2 and 3 at region 1's exit. Region 0 reads argument 0 through
its input window 0 and leaves it as entered, and owns none of arguments 1, 2, 3; region 1 reads argument 1
through its input window 0 and leaves it as entered, and owns none of arguments 0, 2, 3; the first host
stretch writes none of them. -/

theorem W3_arg0 (c : Dev nD) : W3 m ρ c (Proc.devRef .tc main_arg0) = m ((c.tc : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) :=
          (W2_arr m ρ c 0).trans (((dat0 (V1 m ρ) c).arrAt_in 0 rfl _).trans (A_eq0 (V1 m ρ) c 0))
    _ = m ((c.tc : Thread nD τ).loc main_arg0) := V1_arg0 m ρ c

theorem W3_arg1 (c : Dev nD) : W3 m ρ c (Proc.devRef .tc main_arg1) = m ((c.tc : Thread nD τ).loc main_arg1) :=
  calc W3 m ρ c (Proc.devRef .tc main_arg1)
    _ = W2 m ρ c (Proc.devRef .tc main_arg1) :=
          (W3_arr m ρ c 0).trans (((dat1 (V2 m ρ) c).arrAt_in 0 rfl _).trans (A_eq1 (V2 m ρ) c 0))
    _ = m ((c.tc : Thread nD τ).loc main_arg1) := V2_arg1 m ρ c

theorem W3_arg2 (c : Dev nD) : W3 m ρ c (Proc.devRef .tc main_arg2) = m ((c.tc : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = m ((c.tc : Thread nD τ).loc main_arg2) := hostOps0_keep (W0 m ρ c) main_arg2 (by decide) (by decide)

theorem W3_arg3 (c : Dev nD) : W3 m ρ c (Proc.devRef .tc main_arg3) = m ((c.tc : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = m ((c.tc : Thread nD τ).loc main_arg3) := hostOps0_keep (W0 m ρ c) main_arg3 (by decide) (by decide)

/-! ## What region 2 finds

Region 2 is entered after the second host stretch. That stretch writes neither v2 nor v3: v2 is region 0's
output array (its window 3), which region 1 does not own, so it holds what region 0's write-backs left of it;
v3 is region 1's output array (its window 3) and holds what region 1's write-backs left of it. The stretch
writes v4 … v7, each at its operation's function of an argument that is still as launched. -/

theorem V4_v2 (c : Dev nD) : V4 m ρ c main_v2 = (dat0 (V1 m ρ) c).arrAt 3 cfg0.N :=
  calc W4 m ρ c (Proc.devRef .tc main_v2)
    _ = W3 m ρ c (Proc.devRef .tc main_v2) :=
          hostOps2_keep (W3 m ρ c) main_v2 (by decide) (by decide) (by decide) (by decide)
    _ = W2 m ρ c (Proc.devRef .tc main_v2) := W3_of_ne m ρ c main_v2 (by decide)
    _ = (dat0 (V1 m ρ) c).arrAt 3 cfg0.N := W2_arr m ρ c 3

theorem V4_v3 (c : Dev nD) : V4 m ρ c main_v3 = (dat1 (V2 m ρ) c).arrAt 3 cfg1.N :=
  calc W4 m ρ c (Proc.devRef .tc main_v3)
    _ = W3 m ρ c (Proc.devRef .tc main_v3) :=
          hostOps2_keep (W3 m ρ c) main_v3 (by decide) (by decide) (by decide) (by decide)
    _ = (dat1 (V2 m ρ) c).arrAt 3 cfg1.N := W3_arr m ρ c 3

theorem V4_v4 (c : Dev nD) :
    V4 m ρ c main_v4
      = truncf (F := Ideal) (s := S32x512x1024) (φ := .f32) .bf16 (m ((c.tc : Thread nD τ).loc main_arg0)) bitsLt_bf16_f32 := by
  show StableHlo.after hostOps2 (W3 m ρ c) (Proc.devRef .tc main_v4) = _
  dsimp only [hostOps2]
  after_results
  rw [W3_arg0 m ρ c]

theorem V4_v5 (c : Dev nD) :
    V4 m ρ c main_v5
      = truncf (F := Ideal) (s := S32x1024x1024) (φ := .f32) .bf16 (m ((c.tc : Thread nD τ).loc main_arg1)) bitsLt_bf16_f32 := by
  show StableHlo.after hostOps2 (W3 m ρ c) (Proc.devRef .tc main_v5) = _
  dsimp only [hostOps2]
  after_results
  rw [W3_arg1 m ρ c]

theorem V4_v6 (c : Dev nD) :
    V4 m ρ c main_v6 = shapeCast S32x1x512 (m ((c.tc : Thread nD τ).loc main_arg2)) shapeCasts_S32x512_S32x1x512 := by
  show StableHlo.after hostOps2 (W3 m ρ c) (Proc.devRef .tc main_v6) = _
  dsimp only [hostOps2]
  after_results
  rw [W3_arg2 m ρ c]
  rfl

theorem V4_v7 (c : Dev nD) :
    V4 m ρ c main_v7 = shapeCast S32x1x1024 (m ((c.tc : Thread nD τ).loc main_arg3)) shapeCasts_S32x1024_S32x1x1024 := by
  show StableHlo.after hostOps2 (W3 m ρ c) (Proc.devRef .tc main_v7) = _
  dsimp only [hostOps2]
  after_results
  rw [W3_arg3 m ρ c]
  rfl

end Cert.KernelIdeal.KRun

end
-- ==== Proof.Blocks.lean ====
/-
  From blocks to arrays, for the three regions of the idealized kernel program.

  Every region runs over a grid of 32 points. A blocked window cuts a [32, rows, cols] array into 32 blocks
  [1, rows, cols], point t taking block (t, 0, 0): element (u, r, k) of the block at t is element (t, r, k) of
  the array. A whole-array window takes block (0, 0) at every point: element (e, k) of the block is element
  (e, k) of the array. Both are read off the printed index maps, decided over the 32 points.

  For an output window the same coordinate fact says what point t writes back: if, at every point t, the
  staging buffer after the body holds at (u, r, e) the value G (t, r, e) of one whole-array function G, then
  what t writes back is block t of G; the 32 blocks cover the array (index (b, r, e) is in the block of point
  b), so after the region the array is G. The body's result is kept opaque throughout: it enters only through
  the hypothesis on G.
-/
import proofs.«148050_j57140244906000_2_alg».proof.Proof.Gen.KernelIdeal.Frame
import Idealize.ShloMosaic.Lib.Pipeline.Value
import Idealize.ShloMosaic.Lib.ValueIdx
import Idealize.ShloMosaic.PureOps.Ideal

set_option maxRecDepth 16384

noncomputable section

namespace Cert.KernelIdeal.Blocks

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-! # Region 0

Windows: 0 reads argument 0 in blocks [1, 512, 1024]; 1 reads argument 4 whole; 2 reads v0 whole; 3 writes v2 in
blocks [1, 512, 1024]. -/

/-- Window 0 of region 0 takes block (t, 0, 0) at point t. -/
theorem idx0_0 : ∀ t : Fin cfg0.N, win0_0.index t (0 : Fin 3) = t.val
    ∧ win0_0.index t (1 : Fin 3) = 0 ∧ win0_0.index t (2 : Fin 3) = 0 :=
  (by decide +kernel : ∀ t : Fin grid0.N, _)

/-- Window 1 of region 0 takes block (0, 0) at every point. -/
theorem idx0_1 : ∀ t : Fin cfg0.N, win0_1.index t (0 : Fin 2) = 0 ∧ win0_1.index t (1 : Fin 2) = 0 :=
  (by decide +kernel : ∀ t : Fin grid0.N, _)

/-- Window 2 of region 0 takes block (0, 0) at every point. -/
theorem idx0_2 : ∀ t : Fin cfg0.N, win0_2.index t (0 : Fin 2) = 0 ∧ win0_2.index t (1 : Fin 2) = 0 :=
  (by decide +kernel : ∀ t : Fin grid0.N, _)

/-- Window 3 of region 0 takes block (t, 0, 0) at point t. -/
theorem idx0_3 : ∀ t : Fin cfg0.N, win0_3.index t (0 : Fin 3) = t.val
    ∧ win0_3.index t (1 : Fin 3) = 0 ∧ win0_3.index t (2 : Fin 3) = 0 :=
  (by decide +kernel : ∀ t : Fin grid0.N, _)

/-- Element (u, r, k) of window 0's block at point t is element (t, r, k) of its array. -/
theorem iblk0_0_apply (c : Dev nD) (t : Fin cfg0.N) (b : Fin 32) (hb : b.val = t.val) (u : Fin 1) (r : Fin 512) (k : Fin 1024) :
    iblk0 V c 0 t (ix3 u r k) = V c main_arg0 (ix3 b r k) := by
  obtain ⟨i0, i1, i2⟩ := idx0_0 t
  have hu := u.isLt
  unfold iblk0
  rw [View.read_apply]
  show V c main_arg0 _ = V c main_arg0 _
  refine congrArg (V c main_arg0) ?_
  funext a; apply Fin.ext
  match a with
  | ⟨0, _⟩ => show win0_0.index t (0 : Fin 3) * 1 + 1 * u.val = b.val; omega
  | ⟨1, _⟩ => show win0_0.index t (1 : Fin 3) * 512 + 1 * r.val = r.val; omega
  | ⟨2, _⟩ => show win0_0.index t (2 : Fin 3) * 1024 + 1 * k.val = k.val; omega

/-- Window 1's block at any point is its whole array. -/
theorem iblk0_1_apply (c : Dev nD) (t : Fin cfg0.N) (e : Fin 1024) (k : Fin 1024) :
    iblk0 V c 1 t (ix2 e k) = V c main_arg4 (ix2 e k) := by
  obtain ⟨i0, i1⟩ := idx0_1 t
  unfold iblk0
  rw [View.read_apply]
  show V c main_arg4 _ = V c main_arg4 _
  refine congrArg (V c main_arg4) ?_
  funext a; apply Fin.ext
  match a with
  | ⟨0, _⟩ => show win0_1.index t (0 : Fin 2) * 1024 + 1 * e.val = e.val; omega
  | ⟨1, _⟩ => show win0_1.index t (1 : Fin 2) * 1024 + 1 * k.val = k.val; omega

/-- Window 2's block at any point is its whole array. -/
theorem iblk0_2_apply (c : Dev nD) (t : Fin cfg0.N) (u : Fin 1) (e : Fin 1024) :
    iblk0 V c 2 t (ix2 u e) = V c main_v0 (ix2 u e) := by
  obtain ⟨i0, i1⟩ := idx0_2 t
  unfold iblk0
  rw [View.read_apply]
  show V c main_v0 _ = V c main_v0 _
  refine congrArg (V c main_v0) ?_
  funext a; apply Fin.ext
  match a with
  | ⟨0, _⟩ => show win0_2.index t (0 : Fin 2) * 1 + 1 * u.val = u.val; omega
  | ⟨1, _⟩ => show win0_2.index t (1 : Fin 2) * 1024 + 1 * e.val = e.val; omega

/-- An index of output window 3's array is in point t's block iff each coordinate is in the block's range. -/
theorem mem_blk0_3 (t : Fin cfg0.N) (i : S32x512x1024.Idx) :
    i ∈ ((cfg0.win 3).blk t).view.set ↔ ∀ a : Fin 3, win0_3.index t a * S1x512x1024.size a ≤ (i a).val
      ∧ (i a).val < win0_3.index t a * S1x512x1024.size a + S1x512x1024.size a := by
  show i ∈ ((View.whole main_v2).slice (win0_3.rect t)).set ↔ _
  rw [View.set_slice_whole, Rect.mem_set_unit]
  exact Iff.rfl

/-- If the body leaves G (t, r, e) at (u, r, e) of window 3's staging buffer at every point t, then what
    point t writes back is block t of G. -/
theorem flushed0_3_eq (c : Dev nD) (G : S32x512x1024.Idx → Elt Ideal .bf16)
    (hG : ∀ (t : Fin cfg0.N) (b : Fin 32), b.val = t.val → ∀ (u : Fin 1) (r : Fin 512) (e : Fin 1024),
      out0_3 (iblk0 V c 0 t) (iblk0 V c 1 t) (iblk0 V c 2 t) (ix3 u r e) = G (ix3 b r e))
    (t : Fin cfg0.N) :
    (dat0 V c).flushed 3 t = ((cfg0.win 3).blk t).view.read (Elt Ideal) G := by
  show (cfg0.win 3).cut (grid0.coords t) ((dat0 V c).after 3 t) = _
  rw [after0_3]
  have hN : grid0.N = 32 := N_0
  have ht : t.val < 32 := hN ▸ t.isLt
  funext y
  obtain ⟨u, r, e, rfl⟩ : ∃ (u : Fin 1) (r : Fin 512) (e : Fin 1024), y = ix3 u r e :=
    ⟨y 0, y 1, y 2, eq_ix3 (n0 := 1) (n1 := 512) (n2 := 1024) y⟩
  show out0_3 (iblk0 V c 0 t) (iblk0 V c 1 t) (iblk0 V c 2 t) (ix3 u r e) = G (((cfg0.win 3).blk t).view.emb (ix3 u r e))
  refine (hG t ⟨t.val, ht⟩ rfl u r e).trans (congrArg G ?_)
  obtain ⟨i0, i1, i2⟩ := idx0_3 t
  have hu := u.isLt
  funext a; apply Fin.ext
  match a with
  | ⟨0, _⟩ => show t.val = win0_3.index t (0 : Fin 3) * 1 + 1 * u.val; omega
  | ⟨1, _⟩ => show r.val = win0_3.index t (1 : Fin 3) * 512 + 1 * r.val; omega
  | ⟨2, _⟩ => show e.val = win0_3.index t (2 : Fin 3) * 1024 + 1 * e.val; omega

/-- The 32 blocks cover the array, so after the region output window 3's array is G. -/
theorem final0_3 (c : Dev nD) (G : S32x512x1024.Idx → Elt Ideal .bf16)
    (hG : ∀ (t : Fin cfg0.N) (b : Fin 32), b.val = t.val → ∀ (u : Fin 1) (r : Fin 512) (e : Fin 1024),
      out0_3 (iblk0 V c 0 t) (iblk0 V c 1 t) (iblk0 V c 2 t) (ix3 u r e) = G (ix3 b r e)) :
    (dat0 V c).arrAt 3 cfg0.N = G :=
  (dat0 V c).arrAt_eq_of_cover 3 G (fun t _ => flushed0_3_eq V c G hG t) fun i => by
    have hN : grid0.N = 32 := N_0
    have h0 : (i 0).val < 32 := (i 0).isLt
    have h1 : (i 1).val < 512 := (i 1).isLt
    have h2 : (i 2).val < 1024 := (i 2).isLt
    have hlt : (i 0).val < grid0.N := hN ▸ h0
    refine ⟨⟨(i 0).val, hlt⟩, flush0_3 _, ?_⟩
    rw [mem_blk0_3]
    obtain ⟨i0, i1, i2⟩ := idx0_3 ⟨(i 0).val, hlt⟩
    intro a
    match a with
    | ⟨0, _⟩ =>
      show win0_3.index ⟨(i 0).val, hlt⟩ (0 : Fin 3) * 1 ≤ (i 0).val
        ∧ (i 0).val < win0_3.index ⟨(i 0).val, hlt⟩ (0 : Fin 3) * 1 + 1
      rw [i0]; show (i 0).val * 1 ≤ (i 0).val ∧ (i 0).val < (i 0).val * 1 + 1; omega
    | ⟨1, _⟩ =>
      show win0_3.index ⟨(i 0).val, hlt⟩ (1 : Fin 3) * 512 ≤ (i 1).val
        ∧ (i 1).val < win0_3.index ⟨(i 0).val, hlt⟩ (1 : Fin 3) * 512 + 512
      rw [i1]; omega
    | ⟨2, _⟩ =>
      show win0_3.index ⟨(i 0).val, hlt⟩ (2 : Fin 3) * 1024 ≤ (i 2).val
        ∧ (i 2).val < win0_3.index ⟨(i 0).val, hlt⟩ (2 : Fin 3) * 1024 + 1024
      rw [i2]; omega

/-! # Region 1

Windows: 0 reads argument 1 in blocks [1, 1024, 1024]; 1 reads argument 6 whole; 2 reads v1 whole; 3 writes v3 in
blocks [1, 1024, 1024]. -/

/-- Window 0 of region 1 takes block (t, 0, 0) at point t. -/
theorem idx1_0 : ∀ t : Fin cfg1.N, win1_0.index t (0 : Fin 3) = t.val
    ∧ win1_0.index t (1 : Fin 3) = 0 ∧ win1_0.index t (2 : Fin 3) = 0 :=
  (by decide +kernel : ∀ t : Fin grid1.N, _)

/-- Window 1 of region 1 takes block (0, 0) at every point. -/
theorem idx1_1 : ∀ t : Fin cfg1.N, win1_1.index t (0 : Fin 2) = 0 ∧ win1_1.index t (1 : Fin 2) = 0 :=
  (by decide +kernel : ∀ t : Fin grid1.N, _)

/-- Window 2 of region 1 takes block (0, 0) at every point. -/
theorem idx1_2 : ∀ t : Fin cfg1.N, win1_2.index t (0 : Fin 2) = 0 ∧ win1_2.index t (1 : Fin 2) = 0 :=
  (by decide +kernel : ∀ t : Fin grid1.N, _)

/-- Window 3 of region 1 takes block (t, 0, 0) at point t. -/
theorem idx1_3 : ∀ t : Fin cfg1.N, win1_3.index t (0 : Fin 3) = t.val
    ∧ win1_3.index t (1 : Fin 3) = 0 ∧ win1_3.index t (2 : Fin 3) = 0 :=
  (by decide +kernel : ∀ t : Fin grid1.N, _)

/-- Element (u, r, k) of window 0's block at point t is element (t, r, k) of its array. -/
theorem iblk1_0_apply (c : Dev nD) (t : Fin cfg1.N) (b : Fin 32) (hb : b.val = t.val) (u : Fin 1) (r : Fin 1024) (k : Fin 1024) :
    iblk1 V c 0 t (ix3 u r k) = V c main_arg1 (ix3 b r k) := by
  obtain ⟨i0, i1, i2⟩ := idx1_0 t
  have hu := u.isLt
  unfold iblk1
  rw [View.read_apply]
  show V c main_arg1 _ = V c main_arg1 _
  refine congrArg (V c main_arg1) ?_
  funext a; apply Fin.ext
  match a with
  | ⟨0, _⟩ => show win1_0.index t (0 : Fin 3) * 1 + 1 * u.val = b.val; omega
  | ⟨1, _⟩ => show win1_0.index t (1 : Fin 3) * 1024 + 1 * r.val = r.val; omega
  | ⟨2, _⟩ => show win1_0.index t (2 : Fin 3) * 1024 + 1 * k.val = k.val; omega

/-- Window 1's block at any point is its whole array. -/
theorem iblk1_1_apply (c : Dev nD) (t : Fin cfg1.N) (e : Fin 1024) (k : Fin 1024) :
    iblk1 V c 1 t (ix2 e k) = V c main_arg6 (ix2 e k) := by
  obtain ⟨i0, i1⟩ := idx1_1 t
  unfold iblk1
  rw [View.read_apply]
  show V c main_arg6 _ = V c main_arg6 _
  refine congrArg (V c main_arg6) ?_
  funext a; apply Fin.ext
  match a with
  | ⟨0, _⟩ => show win1_1.index t (0 : Fin 2) * 1024 + 1 * e.val = e.val; omega
  | ⟨1, _⟩ => show win1_1.index t (1 : Fin 2) * 1024 + 1 * k.val = k.val; omega

/-- Window 2's block at any point is its whole array. -/
theorem iblk1_2_apply (c : Dev nD) (t : Fin cfg1.N) (u : Fin 1) (e : Fin 1024) :
    iblk1 V c 2 t (ix2 u e) = V c main_v1 (ix2 u e) := by
  obtain ⟨i0, i1⟩ := idx1_2 t
  unfold iblk1
  rw [View.read_apply]
  show V c main_v1 _ = V c main_v1 _
  refine congrArg (V c main_v1) ?_
  funext a; apply Fin.ext
  match a with
  | ⟨0, _⟩ => show win1_2.index t (0 : Fin 2) * 1 + 1 * u.val = u.val; omega
  | ⟨1, _⟩ => show win1_2.index t (1 : Fin 2) * 1024 + 1 * e.val = e.val; omega

/-- An index of output window 3's array is in point t's block iff each coordinate is in the block's range. -/
theorem mem_blk1_3 (t : Fin cfg1.N) (i : S32x1024x1024.Idx) :
    i ∈ ((cfg1.win 3).blk t).view.set ↔ ∀ a : Fin 3, win1_3.index t a * S1x1024x1024.size a ≤ (i a).val
      ∧ (i a).val < win1_3.index t a * S1x1024x1024.size a + S1x1024x1024.size a := by
  show i ∈ ((View.whole main_v3).slice (win1_3.rect t)).set ↔ _
  rw [View.set_slice_whole, Rect.mem_set_unit]
  exact Iff.rfl

/-- If the body leaves G (t, r, e) at (u, r, e) of window 3's staging buffer at every point t, then what
    point t writes back is block t of G. -/
theorem flushed1_3_eq (c : Dev nD) (G : S32x1024x1024.Idx → Elt Ideal .bf16)
    (hG : ∀ (t : Fin cfg1.N) (b : Fin 32), b.val = t.val → ∀ (u : Fin 1) (r : Fin 1024) (e : Fin 1024),
      out1_3 (iblk1 V c 0 t) (iblk1 V c 1 t) (iblk1 V c 2 t) (ix3 u r e) = G (ix3 b r e))
    (t : Fin cfg1.N) :
    (dat1 V c).flushed 3 t = ((cfg1.win 3).blk t).view.read (Elt Ideal) G := by
  show (cfg1.win 3).cut (grid1.coords t) ((dat1 V c).after 3 t) = _
  rw [after1_3]
  have hN : grid1.N = 32 := N_1
  have ht : t.val < 32 := hN ▸ t.isLt
  funext y
  obtain ⟨u, r, e, rfl⟩ : ∃ (u : Fin 1) (r : Fin 1024) (e : Fin 1024), y = ix3 u r e :=
    ⟨y 0, y 1, y 2, eq_ix3 (n0 := 1) (n1 := 1024) (n2 := 1024) y⟩
  show out1_3 (iblk1 V c 0 t) (iblk1 V c 1 t) (iblk1 V c 2 t) (ix3 u r e) = G (((cfg1.win 3).blk t).view.emb (ix3 u r e))
  refine (hG t ⟨t.val, ht⟩ rfl u r e).trans (congrArg G ?_)
  obtain ⟨i0, i1, i2⟩ := idx1_3 t
  have hu := u.isLt
  funext a; apply Fin.ext
  match a with
  | ⟨0, _⟩ => show t.val = win1_3.index t (0 : Fin 3) * 1 + 1 * u.val; omega
  | ⟨1, _⟩ => show r.val = win1_3.index t (1 : Fin 3) * 1024 + 1 * r.val; omega
  | ⟨2, _⟩ => show e.val = win1_3.index t (2 : Fin 3) * 1024 + 1 * e.val; omega

/-- The 32 blocks cover the array, so after the region output window 3's array is G. -/
theorem final1_3 (c : Dev nD) (G : S32x1024x1024.Idx → Elt Ideal .bf16)
    (hG : ∀ (t : Fin cfg1.N) (b : Fin 32), b.val = t.val → ∀ (u : Fin 1) (r : Fin 1024) (e : Fin 1024),
      out1_3 (iblk1 V c 0 t) (iblk1 V c 1 t) (iblk1 V c 2 t) (ix3 u r e) = G (ix3 b r e)) :
    (dat1 V c).arrAt 3 cfg1.N = G :=
  (dat1 V c).arrAt_eq_of_cover 3 G (fun t _ => flushed1_3_eq V c G hG t) fun i => by
    have hN : grid1.N = 32 := N_1
    have h0 : (i 0).val < 32 := (i 0).isLt
    have h1 : (i 1).val < 1024 := (i 1).isLt
    have h2 : (i 2).val < 1024 := (i 2).isLt
    have hlt : (i 0).val < grid1.N := hN ▸ h0
    refine ⟨⟨(i 0).val, hlt⟩, flush1_3 _, ?_⟩
    rw [mem_blk1_3]
    obtain ⟨i0, i1, i2⟩ := idx1_3 ⟨(i 0).val, hlt⟩
    intro a
    match a with
    | ⟨0, _⟩ =>
      show win1_3.index ⟨(i 0).val, hlt⟩ (0 : Fin 3) * 1 ≤ (i 0).val
        ∧ (i 0).val < win1_3.index ⟨(i 0).val, hlt⟩ (0 : Fin 3) * 1 + 1
      rw [i0]; show (i 0).val * 1 ≤ (i 0).val ∧ (i 0).val < (i 0).val * 1 + 1; omega
    | ⟨1, _⟩ =>
      show win1_3.index ⟨(i 0).val, hlt⟩ (1 : Fin 3) * 1024 ≤ (i 1).val
        ∧ (i 1).val < win1_3.index ⟨(i 0).val, hlt⟩ (1 : Fin 3) * 1024 + 1024
      rw [i1]; omega
    | ⟨2, _⟩ =>
      show win1_3.index ⟨(i 0).val, hlt⟩ (2 : Fin 3) * 1024 ≤ (i 2).val
        ∧ (i 2).val < win1_3.index ⟨(i 0).val, hlt⟩ (2 : Fin 3) * 1024 + 1024
      rw [i2]; omega

/-! # Region 2

Windows: 0 reads v2 in blocks [1, 512, 1024]; 1 reads v3 in blocks [1, 1024, 1024]; 2 reads v4 in blocks
[1, 512, 1024]; 3 reads v5 in blocks [1, 1024, 1024]; 4 reads v6 in blocks [1, 1, 512]; 5 reads v7 in blocks
[1, 1, 1024]; 6, 7, 8, 9 write the four results in blocks [1, 512, 1024], [1, 1024, 1024], [1, 512, 1024] and
[1, 1024, 512]. -/

/-- Window 0 of region 2 takes block (t, 0, 0) at point t. -/
theorem idx2_0 : ∀ t : Fin cfg2.N, win2_0.index t (0 : Fin 3) = t.val
    ∧ win2_0.index t (1 : Fin 3) = 0 ∧ win2_0.index t (2 : Fin 3) = 0 :=
  (by decide +kernel : ∀ t : Fin grid2.N, _)

/-- Window 1 of region 2 takes block (t, 0, 0) at point t. -/
theorem idx2_1 : ∀ t : Fin cfg2.N, win2_1.index t (0 : Fin 3) = t.val
    ∧ win2_1.index t (1 : Fin 3) = 0 ∧ win2_1.index t (2 : Fin 3) = 0 :=
  (by decide +kernel : ∀ t : Fin grid2.N, _)

/-- Window 2 of region 2 takes block (t, 0, 0) at point t. -/
theorem idx2_2 : ∀ t : Fin cfg2.N, win2_2.index t (0 : Fin 3) = t.val
    ∧ win2_2.index t (1 : Fin 3) = 0 ∧ win2_2.index t (2 : Fin 3) = 0 :=
  (by decide +kernel : ∀ t : Fin grid2.N, _)

/-- Window 3 of region 2 takes block (t, 0, 0) at point t. -/
theorem idx2_3 : ∀ t : Fin cfg2.N, win2_3.index t (0 : Fin 3) = t.val
    ∧ win2_3.index t (1 : Fin 3) = 0 ∧ win2_3.index t (2 : Fin 3) = 0 :=
  (by decide +kernel : ∀ t : Fin grid2.N, _)

/-- Window 4 of region 2 takes block (t, 0, 0) at point t. -/
theorem idx2_4 : ∀ t : Fin cfg2.N, win2_4.index t (0 : Fin 3) = t.val
    ∧ win2_4.index t (1 : Fin 3) = 0 ∧ win2_4.index t (2 : Fin 3) = 0 :=
  (by decide +kernel : ∀ t : Fin grid2.N, _)

/-- Window 5 of region 2 takes block (t, 0, 0) at point t. -/
theorem idx2_5 : ∀ t : Fin cfg2.N, win2_5.index t (0 : Fin 3) = t.val
    ∧ win2_5.index t (1 : Fin 3) = 0 ∧ win2_5.index t (2 : Fin 3) = 0 :=
  (by decide +kernel : ∀ t : Fin grid2.N, _)

/-- Window 6 of region 2 takes block (t, 0, 0) at point t. -/
theorem idx2_6 : ∀ t : Fin cfg2.N, win2_6.index t (0 : Fin 3) = t.val
    ∧ win2_6.index t (1 : Fin 3) = 0 ∧ win2_6.index t (2 : Fin 3) = 0 :=
  (by decide +kernel : ∀ t : Fin grid2.N, _)

/-- Window 7 of region 2 takes block (t, 0, 0) at point t. -/
theorem idx2_7 : ∀ t : Fin cfg2.N, win2_7.index t (0 : Fin 3) = t.val
    ∧ win2_7.index t (1 : Fin 3) = 0 ∧ win2_7.index t (2 : Fin 3) = 0 :=
  (by decide +kernel : ∀ t : Fin grid2.N, _)

/-- Window 8 of region 2 takes block (t, 0, 0) at point t. -/
theorem idx2_8 : ∀ t : Fin cfg2.N, win2_8.index t (0 : Fin 3) = t.val
    ∧ win2_8.index t (1 : Fin 3) = 0 ∧ win2_8.index t (2 : Fin 3) = 0 :=
  (by decide +kernel : ∀ t : Fin grid2.N, _)

/-- Window 9 of region 2 takes block (t, 0, 0) at point t. -/
theorem idx2_9 : ∀ t : Fin cfg2.N, win2_9.index t (0 : Fin 3) = t.val
    ∧ win2_9.index t (1 : Fin 3) = 0 ∧ win2_9.index t (2 : Fin 3) = 0 :=
  (by decide +kernel : ∀ t : Fin grid2.N, _)

/-- Element (u, r, k) of window 0's block at point t is element (t, r, k) of its array. -/
theorem iblk2_0_apply (c : Dev nD) (t : Fin cfg2.N) (b : Fin 32) (hb : b.val = t.val) (u : Fin 1) (r : Fin 512) (k : Fin 1024) :
    iblk2 V c 0 t (ix3 u r k) = V c main_v2 (ix3 b r k) := by
  obtain ⟨i0, i1, i2⟩ := idx2_0 t
  have hu := u.isLt
  unfold iblk2
  rw [View.read_apply]
  show V c main_v2 _ = V c main_v2 _
  refine congrArg (V c main_v2) ?_
  funext a; apply Fin.ext
  match a with
  | ⟨0, _⟩ => show win2_0.index t (0 : Fin 3) * 1 + 1 * u.val = b.val; omega
  | ⟨1, _⟩ => show win2_0.index t (1 : Fin 3) * 512 + 1 * r.val = r.val; omega
  | ⟨2, _⟩ => show win2_0.index t (2 : Fin 3) * 1024 + 1 * k.val = k.val; omega

/-- Element (u, r, k) of window 1's block at point t is element (t, r, k) of its array. -/
theorem iblk2_1_apply (c : Dev nD) (t : Fin cfg2.N) (b : Fin 32) (hb : b.val = t.val) (u : Fin 1) (r : Fin 1024) (k : Fin 1024) :
    iblk2 V c 1 t (ix3 u r k) = V c main_v3 (ix3 b r k) := by
  obtain ⟨i0, i1, i2⟩ := idx2_1 t
  have hu := u.isLt
  unfold iblk2
  rw [View.read_apply]
  show V c main_v3 _ = V c main_v3 _
  refine congrArg (V c main_v3) ?_
  funext a; apply Fin.ext
  match a with
  | ⟨0, _⟩ => show win2_1.index t (0 : Fin 3) * 1 + 1 * u.val = b.val; omega
  | ⟨1, _⟩ => show win2_1.index t (1 : Fin 3) * 1024 + 1 * r.val = r.val; omega
  | ⟨2, _⟩ => show win2_1.index t (2 : Fin 3) * 1024 + 1 * k.val = k.val; omega

/-- Element (u, r, k) of window 2's block at point t is element (t, r, k) of its array. -/
theorem iblk2_2_apply (c : Dev nD) (t : Fin cfg2.N) (b : Fin 32) (hb : b.val = t.val) (u : Fin 1) (r : Fin 512) (k : Fin 1024) :
    iblk2 V c 2 t (ix3 u r k) = V c main_v4 (ix3 b r k) := by
  obtain ⟨i0, i1, i2⟩ := idx2_2 t
  have hu := u.isLt
  unfold iblk2
  rw [View.read_apply]
  show V c main_v4 _ = V c main_v4 _
  refine congrArg (V c main_v4) ?_
  funext a; apply Fin.ext
  match a with
  | ⟨0, _⟩ => show win2_2.index t (0 : Fin 3) * 1 + 1 * u.val = b.val; omega
  | ⟨1, _⟩ => show win2_2.index t (1 : Fin 3) * 512 + 1 * r.val = r.val; omega
  | ⟨2, _⟩ => show win2_2.index t (2 : Fin 3) * 1024 + 1 * k.val = k.val; omega

/-- Element (u, r, k) of window 3's block at point t is element (t, r, k) of its array. -/
theorem iblk2_3_apply (c : Dev nD) (t : Fin cfg2.N) (b : Fin 32) (hb : b.val = t.val) (u : Fin 1) (r : Fin 1024) (k : Fin 1024) :
    iblk2 V c 3 t (ix3 u r k) = V c main_v5 (ix3 b r k) := by
  obtain ⟨i0, i1, i2⟩ := idx2_3 t
  have hu := u.isLt
  unfold iblk2
  rw [View.read_apply]
  show V c main_v5 _ = V c main_v5 _
  refine congrArg (V c main_v5) ?_
  funext a; apply Fin.ext
  match a with
  | ⟨0, _⟩ => show win2_3.index t (0 : Fin 3) * 1 + 1 * u.val = b.val; omega
  | ⟨1, _⟩ => show win2_3.index t (1 : Fin 3) * 1024 + 1 * r.val = r.val; omega
  | ⟨2, _⟩ => show win2_3.index t (2 : Fin 3) * 1024 + 1 * k.val = k.val; omega

/-- Element (u, r, k) of window 4's block at point t is element (t, r, k) of its array. -/
theorem iblk2_4_apply (c : Dev nD) (t : Fin cfg2.N) (b : Fin 32) (hb : b.val = t.val) (u : Fin 1) (r : Fin 1) (k : Fin 512) :
    iblk2 V c 4 t (ix3 u r k) = V c main_v6 (ix3 b r k) := by
  obtain ⟨i0, i1, i2⟩ := idx2_4 t
  have hu := u.isLt
  unfold iblk2
  rw [View.read_apply]
  show V c main_v6 _ = V c main_v6 _
  refine congrArg (V c main_v6) ?_
  funext a; apply Fin.ext
  match a with
  | ⟨0, _⟩ => show win2_4.index t (0 : Fin 3) * 1 + 1 * u.val = b.val; omega
  | ⟨1, _⟩ => show win2_4.index t (1 : Fin 3) * 1 + 1 * r.val = r.val; omega
  | ⟨2, _⟩ => show win2_4.index t (2 : Fin 3) * 512 + 1 * k.val = k.val; omega

/-- Element (u, r, k) of window 5's block at point t is element (t, r, k) of its array. -/
theorem iblk2_5_apply (c : Dev nD) (t : Fin cfg2.N) (b : Fin 32) (hb : b.val = t.val) (u : Fin 1) (r : Fin 1) (k : Fin 1024) :
    iblk2 V c 5 t (ix3 u r k) = V c main_v7 (ix3 b r k) := by
  obtain ⟨i0, i1, i2⟩ := idx2_5 t
  have hu := u.isLt
  unfold iblk2
  rw [View.read_apply]
  show V c main_v7 _ = V c main_v7 _
  refine congrArg (V c main_v7) ?_
  funext a; apply Fin.ext
  match a with
  | ⟨0, _⟩ => show win2_5.index t (0 : Fin 3) * 1 + 1 * u.val = b.val; omega
  | ⟨1, _⟩ => show win2_5.index t (1 : Fin 3) * 1 + 1 * r.val = r.val; omega
  | ⟨2, _⟩ => show win2_5.index t (2 : Fin 3) * 1024 + 1 * k.val = k.val; omega

/-- An index of output window 8's array is in point t's block iff each coordinate is in the block's range. -/
theorem mem_blk2_8 (t : Fin cfg2.N) (i : S32x512x1024.Idx) :
    i ∈ ((cfg2.win 8).blk t).view.set ↔ ∀ a : Fin 3, win2_8.index t a * S1x512x1024.size a ≤ (i a).val
      ∧ (i a).val < win2_8.index t a * S1x512x1024.size a + S1x512x1024.size a := by
  show i ∈ ((View.whole main_v8_2).slice (win2_8.rect t)).set ↔ _
  rw [View.set_slice_whole, Rect.mem_set_unit]
  exact Iff.rfl

/-- If the body leaves G (t, r, e) at (u, r, e) of window 8's staging buffer at every point t, then what
    point t writes back is block t of G. -/
theorem flushed2_8_eq (c : Dev nD) (G : S32x512x1024.Idx → Elt Ideal .f32)
    (hG : ∀ (t : Fin cfg2.N) (b : Fin 32), b.val = t.val → ∀ (u : Fin 1) (r : Fin 512) (e : Fin 1024),
      out2_8 (iblk2 V c 0 t) (iblk2 V c 1 t) (iblk2 V c 2 t) (iblk2 V c 3 t) (iblk2 V c 4 t) (iblk2 V c 5 t) (ix3 u r e) = G (ix3 b r e))
    (t : Fin cfg2.N) :
    (dat2 V c).flushed 8 t = ((cfg2.win 8).blk t).view.read (Elt Ideal) G := by
  show (cfg2.win 8).cut (grid2.coords t) ((dat2 V c).after 8 t) = _
  rw [after2_8]
  have hN : grid2.N = 32 := N_2
  have ht : t.val < 32 := hN ▸ t.isLt
  funext y
  obtain ⟨u, r, e, rfl⟩ : ∃ (u : Fin 1) (r : Fin 512) (e : Fin 1024), y = ix3 u r e :=
    ⟨y 0, y 1, y 2, eq_ix3 (n0 := 1) (n1 := 512) (n2 := 1024) y⟩
  show out2_8 (iblk2 V c 0 t) (iblk2 V c 1 t) (iblk2 V c 2 t) (iblk2 V c 3 t) (iblk2 V c 4 t) (iblk2 V c 5 t) (ix3 u r e) = G (((cfg2.win 8).blk t).view.emb (ix3 u r e))
  refine (hG t ⟨t.val, ht⟩ rfl u r e).trans (congrArg G ?_)
  obtain ⟨i0, i1, i2⟩ := idx2_8 t
  have hu := u.isLt
  funext a; apply Fin.ext
  match a with
  | ⟨0, _⟩ => show t.val = win2_8.index t (0 : Fin 3) * 1 + 1 * u.val; omega
  | ⟨1, _⟩ => show r.val = win2_8.index t (1 : Fin 3) * 512 + 1 * r.val; omega
  | ⟨2, _⟩ => show e.val = win2_8.index t (2 : Fin 3) * 1024 + 1 * e.val; omega

/-- The 32 blocks cover the array, so after the region output window 8's array is G. -/
theorem final2_8 (c : Dev nD) (G : S32x512x1024.Idx → Elt Ideal .f32)
    (hG : ∀ (t : Fin cfg2.N) (b : Fin 32), b.val = t.val → ∀ (u : Fin 1) (r : Fin 512) (e : Fin 1024),
      out2_8 (iblk2 V c 0 t) (iblk2 V c 1 t) (iblk2 V c 2 t) (iblk2 V c 3 t) (iblk2 V c 4 t) (iblk2 V c 5 t) (ix3 u r e) = G (ix3 b r e)) :
    (dat2 V c).arrAt 8 cfg2.N = G :=
  (dat2 V c).arrAt_eq_of_cover 8 G (fun t _ => flushed2_8_eq V c G hG t) fun i => by
    have hN : grid2.N = 32 := N_2
    have h0 : (i 0).val < 32 := (i 0).isLt
    have h1 : (i 1).val < 512 := (i 1).isLt
    have h2 : (i 2).val < 1024 := (i 2).isLt
    have hlt : (i 0).val < grid2.N := hN ▸ h0
    refine ⟨⟨(i 0).val, hlt⟩, flush2_8 _, ?_⟩
    rw [mem_blk2_8]
    obtain ⟨i0, i1, i2⟩ := idx2_8 ⟨(i 0).val, hlt⟩
    intro a
    match a with
    | ⟨0, _⟩ =>
      show win2_8.index ⟨(i 0).val, hlt⟩ (0 : Fin 3) * 1 ≤ (i 0).val
        ∧ (i 0).val < win2_8.index ⟨(i 0).val, hlt⟩ (0 : Fin 3) * 1 + 1
      rw [i0]; show (i 0).val * 1 ≤ (i 0).val ∧ (i 0).val < (i 0).val * 1 + 1; omega
    | ⟨1, _⟩ =>
      show win2_8.index ⟨(i 0).val, hlt⟩ (1 : Fin 3) * 512 ≤ (i 1).val
        ∧ (i 1).val < win2_8.index ⟨(i 0).val, hlt⟩ (1 : Fin 3) * 512 + 512
      rw [i1]; omega
    | ⟨2, _⟩ =>
      show win2_8.index ⟨(i 0).val, hlt⟩ (2 : Fin 3) * 1024 ≤ (i 2).val
        ∧ (i 2).val < win2_8.index ⟨(i 0).val, hlt⟩ (2 : Fin 3) * 1024 + 1024
      rw [i2]; omega

/-- An index of output window 9's array is in point t's block iff each coordinate is in the block's range. -/
theorem mem_blk2_9 (t : Fin cfg2.N) (i : S32x1024x512.Idx) :
    i ∈ ((cfg2.win 9).blk t).view.set ↔ ∀ a : Fin 3, win2_9.index t a * S1x1024x512.size a ≤ (i a).val
      ∧ (i a).val < win2_9.index t a * S1x1024x512.size a + S1x1024x512.size a := by
  show i ∈ ((View.whole main_v8_3).slice (win2_9.rect t)).set ↔ _
  rw [View.set_slice_whole, Rect.mem_set_unit]
  exact Iff.rfl

/-- If the body leaves G (t, r, e) at (u, r, e) of window 9's staging buffer at every point t, then what
    point t writes back is block t of G. -/
theorem flushed2_9_eq (c : Dev nD) (G : S32x1024x512.Idx → Elt Ideal .f32)
    (hG : ∀ (t : Fin cfg2.N) (b : Fin 32), b.val = t.val → ∀ (u : Fin 1) (r : Fin 1024) (e : Fin 512),
      out2_9 (iblk2 V c 0 t) (iblk2 V c 1 t) (iblk2 V c 2 t) (iblk2 V c 3 t) (iblk2 V c 4 t) (iblk2 V c 5 t) (ix3 u r e) = G (ix3 b r e))
    (t : Fin cfg2.N) :
    (dat2 V c).flushed 9 t = ((cfg2.win 9).blk t).view.read (Elt Ideal) G := by
  show (cfg2.win 9).cut (grid2.coords t) ((dat2 V c).after 9 t) = _
  rw [after2_9]
  have hN : grid2.N = 32 := N_2
  have ht : t.val < 32 := hN ▸ t.isLt
  funext y
  obtain ⟨u, r, e, rfl⟩ : ∃ (u : Fin 1) (r : Fin 1024) (e : Fin 512), y = ix3 u r e :=
    ⟨y 0, y 1, y 2, eq_ix3 (n0 := 1) (n1 := 1024) (n2 := 512) y⟩
  show out2_9 (iblk2 V c 0 t) (iblk2 V c 1 t) (iblk2 V c 2 t) (iblk2 V c 3 t) (iblk2 V c 4 t) (iblk2 V c 5 t) (ix3 u r e) = G (((cfg2.win 9).blk t).view.emb (ix3 u r e))
  refine (hG t ⟨t.val, ht⟩ rfl u r e).trans (congrArg G ?_)
  obtain ⟨i0, i1, i2⟩ := idx2_9 t
  have hu := u.isLt
  funext a; apply Fin.ext
  match a with
  | ⟨0, _⟩ => show t.val = win2_9.index t (0 : Fin 3) * 1 + 1 * u.val; omega
  | ⟨1, _⟩ => show r.val = win2_9.index t (1 : Fin 3) * 1024 + 1 * r.val; omega
  | ⟨2, _⟩ => show e.val = win2_9.index t (2 : Fin 3) * 512 + 1 * e.val; omega

/-- The 32 blocks cover the array, so after the region output window 9's array is G. -/
theorem final2_9 (c : Dev nD) (G : S32x1024x512.Idx → Elt Ideal .f32)
    (hG : ∀ (t : Fin cfg2.N) (b : Fin 32), b.val = t.val → ∀ (u : Fin 1) (r : Fin 1024) (e : Fin 512),
      out2_9 (iblk2 V c 0 t) (iblk2 V c 1 t) (iblk2 V c 2 t) (iblk2 V c 3 t) (iblk2 V c 4 t) (iblk2 V c 5 t) (ix3 u r e) = G (ix3 b r e)) :
    (dat2 V c).arrAt 9 cfg2.N = G :=
  (dat2 V c).arrAt_eq_of_cover 9 G (fun t _ => flushed2_9_eq V c G hG t) fun i => by
    have hN : grid2.N = 32 := N_2
    have h0 : (i 0).val < 32 := (i 0).isLt
    have h1 : (i 1).val < 1024 := (i 1).isLt
    have h2 : (i 2).val < 512 := (i 2).isLt
    have hlt : (i 0).val < grid2.N := hN ▸ h0
    refine ⟨⟨(i 0).val, hlt⟩, flush2_9 _, ?_⟩
    rw [mem_blk2_9]
    obtain ⟨i0, i1, i2⟩ := idx2_9 ⟨(i 0).val, hlt⟩
    intro a
    match a with
    | ⟨0, _⟩ =>
      show win2_9.index ⟨(i 0).val, hlt⟩ (0 : Fin 3) * 1 ≤ (i 0).val
        ∧ (i 0).val < win2_9.index ⟨(i 0).val, hlt⟩ (0 : Fin 3) * 1 + 1
      rw [i0]; show (i 0).val * 1 ≤ (i 0).val ∧ (i 0).val < (i 0).val * 1 + 1; omega
    | ⟨1, _⟩ =>
      show win2_9.index ⟨(i 0).val, hlt⟩ (1 : Fin 3) * 1024 ≤ (i 1).val
        ∧ (i 1).val < win2_9.index ⟨(i 0).val, hlt⟩ (1 : Fin 3) * 1024 + 1024
      rw [i1]; omega
    | ⟨2, _⟩ =>
      show win2_9.index ⟨(i 0).val, hlt⟩ (2 : Fin 3) * 512 ≤ (i 2).val
        ∧ (i 2).val < win2_9.index ⟨(i 0).val, hlt⟩ (2 : Fin 3) * 512 + 512
      rw [i2]; omega

/-- An index of output window 6's array is in point t's block iff each coordinate is in the block's range. -/
theorem mem_blk2_6 (t : Fin cfg2.N) (i : S32x512x1024.Idx) :
    i ∈ ((cfg2.win 6).blk t).view.set ↔ ∀ a : Fin 3, win2_6.index t a * S1x512x1024.size a ≤ (i a).val
      ∧ (i a).val < win2_6.index t a * S1x512x1024.size a + S1x512x1024.size a := by
  show i ∈ ((View.whole main_v8_0).slice (win2_6.rect t)).set ↔ _
  rw [View.set_slice_whole, Rect.mem_set_unit]
  exact Iff.rfl

/-- If the body leaves G (t, r, e) at (u, r, e) of window 6's staging buffer at every point t, then what
    point t writes back is block t of G. -/
theorem flushed2_6_eq (c : Dev nD) (G : S32x512x1024.Idx → Elt Ideal .f32)
    (hG : ∀ (t : Fin cfg2.N) (b : Fin 32), b.val = t.val → ∀ (u : Fin 1) (r : Fin 512) (e : Fin 1024),
      out2_6 (iblk2 V c 0 t) (iblk2 V c 1 t) (iblk2 V c 2 t) (iblk2 V c 3 t) (iblk2 V c 4 t) (iblk2 V c 5 t) (ix3 u r e) = G (ix3 b r e))
    (t : Fin cfg2.N) :
    (dat2 V c).flushed 6 t = ((cfg2.win 6).blk t).view.read (Elt Ideal) G := by
  show (cfg2.win 6).cut (grid2.coords t) ((dat2 V c).after 6 t) = _
  rw [after2_6]
  have hN : grid2.N = 32 := N_2
  have ht : t.val < 32 := hN ▸ t.isLt
  funext y
  obtain ⟨u, r, e, rfl⟩ : ∃ (u : Fin 1) (r : Fin 512) (e : Fin 1024), y = ix3 u r e :=
    ⟨y 0, y 1, y 2, eq_ix3 (n0 := 1) (n1 := 512) (n2 := 1024) y⟩
  show out2_6 (iblk2 V c 0 t) (iblk2 V c 1 t) (iblk2 V c 2 t) (iblk2 V c 3 t) (iblk2 V c 4 t) (iblk2 V c 5 t) (ix3 u r e) = G (((cfg2.win 6).blk t).view.emb (ix3 u r e))
  refine (hG t ⟨t.val, ht⟩ rfl u r e).trans (congrArg G ?_)
  obtain ⟨i0, i1, i2⟩ := idx2_6 t
  have hu := u.isLt
  funext a; apply Fin.ext
  match a with
  | ⟨0, _⟩ => show t.val = win2_6.index t (0 : Fin 3) * 1 + 1 * u.val; omega
  | ⟨1, _⟩ => show r.val = win2_6.index t (1 : Fin 3) * 512 + 1 * r.val; omega
  | ⟨2, _⟩ => show e.val = win2_6.index t (2 : Fin 3) * 1024 + 1 * e.val; omega

/-- The 32 blocks cover the array, so after the region output window 6's array is G. -/
theorem final2_6 (c : Dev nD) (G : S32x512x1024.Idx → Elt Ideal .f32)
    (hG : ∀ (t : Fin cfg2.N) (b : Fin 32), b.val = t.val → ∀ (u : Fin 1) (r : Fin 512) (e : Fin 1024),
      out2_6 (iblk2 V c 0 t) (iblk2 V c 1 t) (iblk2 V c 2 t) (iblk2 V c 3 t) (iblk2 V c 4 t) (iblk2 V c 5 t) (ix3 u r e) = G (ix3 b r e)) :
    (dat2 V c).arrAt 6 cfg2.N = G :=
  (dat2 V c).arrAt_eq_of_cover 6 G (fun t _ => flushed2_6_eq V c G hG t) fun i => by
    have hN : grid2.N = 32 := N_2
    have h0 : (i 0).val < 32 := (i 0).isLt
    have h1 : (i 1).val < 512 := (i 1).isLt
    have h2 : (i 2).val < 1024 := (i 2).isLt
    have hlt : (i 0).val < grid2.N := hN ▸ h0
    refine ⟨⟨(i 0).val, hlt⟩, flush2_6 _, ?_⟩
    rw [mem_blk2_6]
    obtain ⟨i0, i1, i2⟩ := idx2_6 ⟨(i 0).val, hlt⟩
    intro a
    match a with
    | ⟨0, _⟩ =>
      show win2_6.index ⟨(i 0).val, hlt⟩ (0 : Fin 3) * 1 ≤ (i 0).val
        ∧ (i 0).val < win2_6.index ⟨(i 0).val, hlt⟩ (0 : Fin 3) * 1 + 1
      rw [i0]; show (i 0).val * 1 ≤ (i 0).val ∧ (i 0).val < (i 0).val * 1 + 1; omega
    | ⟨1, _⟩ =>
      show win2_6.index ⟨(i 0).val, hlt⟩ (1 : Fin 3) * 512 ≤ (i 1).val
        ∧ (i 1).val < win2_6.index ⟨(i 0).val, hlt⟩ (1 : Fin 3) * 512 + 512
      rw [i1]; omega
    | ⟨2, _⟩ =>
      show win2_6.index ⟨(i 0).val, hlt⟩ (2 : Fin 3) * 1024 ≤ (i 2).val
        ∧ (i 2).val < win2_6.index ⟨(i 0).val, hlt⟩ (2 : Fin 3) * 1024 + 1024
      rw [i2]; omega

/-- An index of output window 7's array is in point t's block iff each coordinate is in the block's range. -/
theorem mem_blk2_7 (t : Fin cfg2.N) (i : S32x1024x1024.Idx) :
    i ∈ ((cfg2.win 7).blk t).view.set ↔ ∀ a : Fin 3, win2_7.index t a * S1x1024x1024.size a ≤ (i a).val
      ∧ (i a).val < win2_7.index t a * S1x1024x1024.size a + S1x1024x1024.size a := by
  show i ∈ ((View.whole main_v8_1).slice (win2_7.rect t)).set ↔ _
  rw [View.set_slice_whole, Rect.mem_set_unit]
  exact Iff.rfl

/-- If the body leaves G (t, r, e) at (u, r, e) of window 7's staging buffer at every point t, then what
    point t writes back is block t of G. -/
theorem flushed2_7_eq (c : Dev nD) (G : S32x1024x1024.Idx → Elt Ideal .f32)
    (hG : ∀ (t : Fin cfg2.N) (b : Fin 32), b.val = t.val → ∀ (u : Fin 1) (r : Fin 1024) (e : Fin 1024),
      out2_7 (iblk2 V c 0 t) (iblk2 V c 1 t) (iblk2 V c 2 t) (iblk2 V c 3 t) (iblk2 V c 4 t) (iblk2 V c 5 t) (ix3 u r e) = G (ix3 b r e))
    (t : Fin cfg2.N) :
    (dat2 V c).flushed 7 t = ((cfg2.win 7).blk t).view.read (Elt Ideal) G := by
  show (cfg2.win 7).cut (grid2.coords t) ((dat2 V c).after 7 t) = _
  rw [after2_7]
  have hN : grid2.N = 32 := N_2
  have ht : t.val < 32 := hN ▸ t.isLt
  funext y
  obtain ⟨u, r, e, rfl⟩ : ∃ (u : Fin 1) (r : Fin 1024) (e : Fin 1024), y = ix3 u r e :=
    ⟨y 0, y 1, y 2, eq_ix3 (n0 := 1) (n1 := 1024) (n2 := 1024) y⟩
  show out2_7 (iblk2 V c 0 t) (iblk2 V c 1 t) (iblk2 V c 2 t) (iblk2 V c 3 t) (iblk2 V c 4 t) (iblk2 V c 5 t) (ix3 u r e) = G (((cfg2.win 7).blk t).view.emb (ix3 u r e))
  refine (hG t ⟨t.val, ht⟩ rfl u r e).trans (congrArg G ?_)
  obtain ⟨i0, i1, i2⟩ := idx2_7 t
  have hu := u.isLt
  funext a; apply Fin.ext
  match a with
  | ⟨0, _⟩ => show t.val = win2_7.index t (0 : Fin 3) * 1 + 1 * u.val; omega
  | ⟨1, _⟩ => show r.val = win2_7.index t (1 : Fin 3) * 1024 + 1 * r.val; omega
  | ⟨2, _⟩ => show e.val = win2_7.index t (2 : Fin 3) * 1024 + 1 * e.val; omega

/-- The 32 blocks cover the array, so after the region output window 7's array is G. -/
theorem final2_7 (c : Dev nD) (G : S32x1024x1024.Idx → Elt Ideal .f32)
    (hG : ∀ (t : Fin cfg2.N) (b : Fin 32), b.val = t.val → ∀ (u : Fin 1) (r : Fin 1024) (e : Fin 1024),
      out2_7 (iblk2 V c 0 t) (iblk2 V c 1 t) (iblk2 V c 2 t) (iblk2 V c 3 t) (iblk2 V c 4 t) (iblk2 V c 5 t) (ix3 u r e) = G (ix3 b r e)) :
    (dat2 V c).arrAt 7 cfg2.N = G :=
  (dat2 V c).arrAt_eq_of_cover 7 G (fun t _ => flushed2_7_eq V c G hG t) fun i => by
    have hN : grid2.N = 32 := N_2
    have h0 : (i 0).val < 32 := (i 0).isLt
    have h1 : (i 1).val < 1024 := (i 1).isLt
    have h2 : (i 2).val < 1024 := (i 2).isLt
    have hlt : (i 0).val < grid2.N := hN ▸ h0
    refine ⟨⟨(i 0).val, hlt⟩, flush2_7 _, ?_⟩
    rw [mem_blk2_7]
    obtain ⟨i0, i1, i2⟩ := idx2_7 ⟨(i 0).val, hlt⟩
    intro a
    match a with
    | ⟨0, _⟩ =>
      show win2_7.index ⟨(i 0).val, hlt⟩ (0 : Fin 3) * 1 ≤ (i 0).val
        ∧ (i 0).val < win2_7.index ⟨(i 0).val, hlt⟩ (0 : Fin 3) * 1 + 1
      rw [i0]; show (i 0).val * 1 ≤ (i 0).val ∧ (i 0).val < (i 0).val * 1 + 1; omega
    | ⟨1, _⟩ =>
      show win2_7.index ⟨(i 0).val, hlt⟩ (1 : Fin 3) * 1024 ≤ (i 1).val
        ∧ (i 1).val < win2_7.index ⟨(i 0).val, hlt⟩ (1 : Fin 3) * 1024 + 1024
      rw [i1]; omega
    | ⟨2, _⟩ =>
      show win2_7.index ⟨(i 0).val, hlt⟩ (2 : Fin 3) * 1024 ≤ (i 2).val
        ∧ (i 2).val < win2_7.index ⟨(i 0).val, hlt⟩ (2 : Fin 3) * 1024 + 1024
      rw [i2]; omega

end Cert.KernelIdeal.Blocks

end
-- ==== Proof.LibContractSum.lean ====
/-
  A matrix product with ONE contracted axis, into the zero accumulator, read at an output index on the extended reals.

  The product's entry at `j` is the sum, over the contraction index, of the left operand at `lhsIdx j ·` times the right
  operand at `rhsIdx j ·`. When one axis of extent `K` is contracted, the contraction index is its one coordinate, so the
  entry is a sum over `k : Fin K` of the operands at whatever indices the dimension record names there — given by the
  caller as two families `li`, `ri` with the two equations that say so. The statement does not depend on which axes of
  the operands are contracted: row by column, column by column, or any other single-axis contraction.
-/
import Idealize.ShloMosaic.PureOps.Ideal.Laws
import Idealize.ShloMosaic.Lib.ValueIdx

namespace Cert.LibContractSum

open Idealize.ShloMosaic Idealize.ShloMosaic.ValueIdx

/-- A `tpu.matmul` into the f32 zero splat, one contracted axis of extent `K`: at output index `j` it is
    `∑ k : Fin K, lhs (li k) * rhs (ri k)`, where `li k` / `ri k` are the operand indices the dimension record gives at
    `j` and contraction coordinate `k` (`hl`, `hr`). -/
theorem matmul_zero_sum {sl sr so : Shape} {φ₁ φ₂ : FTy} (D : DotDims sl sr so) (prec : Option ContractPrecision) (K : Nat)
    (hrank : D.contr.rank = 1) (hsize : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hrank hsize).symm k) = li k)
    (hr : ∀ k, D.rhsIdx j ((contrEquiv1 D K hrank hsize).symm k) = ri k) :
    FloatOps.matmul D prec lhs rhs (constant so .f32 0x00000000#32) j = ∑ k : Fin K, lhs (li k) * rhs (ri k) := by
  rw [Ideal.matmul_constant_zero_apply, ← Equiv.sum_comp (contrEquiv1 D K hrank hsize).symm]
  exact Finset.sum_congr rfl fun k _ => by rw [hl k, hr k]

end Cert.LibContractSum
-- ==== Proof.Products.lean ====
/-
  The four matrix products of the kernel bodies, each into the zero accumulator, read at an entry on the extended reals.

  Two of them contract the lanes of both operands (a matrix times the transpose of another: entry (i, j) pairs row i of
  the left operand with row j of the right one); the other two contract the lanes of the left operand with the rows of
  the right one (the usual product: row i of the left with column j of the right).  In each case one axis of extent K is
  contracted, so the entry is a sum over k of K products; the lemmas name the two operand positions for each of the four
  dimension records.
-/
import proofs.«148050_j57140244906000_2_alg».proof.Proof.Gen.KernelIdeal
import proofs.«148050_j57140244906000_2_alg».proof.Proof.LibContractSum
import Idealize.ShloMosaic.Lib.ValueIdx
import Idealize.ShloMosaic.PureOps.Ideal.Laws

noncomputable section

open scoped BigOperators

namespace Cert.KernelIdeal.Products

open Cert.KernelIdeal Idealize.ShloMosaic Idealize.ShloMosaic.ValueIdx

/-- rows_by_rows_512: entry (i, j) of the product is the sum over k of the left operand at (i, k) times the right at (j, k). -/
theorem rows_by_rows_512 {φ₁ φ₂ : FTy} (lhs : FVec Ideal S512x1024 φ₁) (rhs : FVec Ideal S1024x1024 φ₂) (i : Fin 512) (j : Fin 1024) :
    matmul dot_S512x1024_S1024x1024_S512x1024_1_1_0_0_n_n none lhs rhs (constant (F := Ideal) S512x1024 .f32 0x00000000#32) (ix2 i j)
      = ∑ k : Fin 1024, lhs (ix2 i k) * rhs (ix2 j k) := by
  refine Cert.LibContractSum.matmul_zero_sum dot_S512x1024_S1024x1024_S512x1024_1_1_0_0_n_n none 1024 rfl rfl lhs rhs (ix2 i j)
    (fun k => ix2 i k) (fun k => ix2 j k) (fun k => ?_) (fun k => ?_)
  · funext a; apply Fin.ext
    match a with
    | ⟨0, _⟩ =>
      show (dot_S512x1024_S1024x1024_S512x1024_1_1_0_0_n_n.lhsIdx (ix2 i j) _ 0).val = i.val
      unfold DotDims.lhsIdx
      rw [dif_neg (show ¬(0 : Fin S512x1024.rank) ∈ dot_S512x1024_S1024x1024_S512x1024_1_1_0_0_n_n.lhsBatch by decide),
        dif_pos (show (0 : Fin S512x1024.rank) ∈ dot_S512x1024_S1024x1024_S512x1024_1_1_0_0_n_n.lhsNonContracting by decide)]
      rfl
    | ⟨1, _⟩ => exact (dot_S512x1024_S1024x1024_S512x1024_1_1_0_0_n_n.lhsIdx_val_of_single rfl _ _).trans (contrEquiv1_symm_val dot_S512x1024_S1024x1024_S512x1024_1_1_0_0_n_n 1024 rfl rfl k)
  · funext a; apply Fin.ext
    match a with
    | ⟨0, _⟩ =>
      show (dot_S512x1024_S1024x1024_S512x1024_1_1_0_0_n_n.rhsIdx (ix2 i j) _ 0).val = j.val
      unfold DotDims.rhsIdx
      rw [dif_neg (show ¬(0 : Fin S1024x1024.rank) ∈ dot_S512x1024_S1024x1024_S512x1024_1_1_0_0_n_n.rhsBatch by decide),
        dif_pos (show (0 : Fin S1024x1024.rank) ∈ dot_S512x1024_S1024x1024_S512x1024_1_1_0_0_n_n.rhsNonContracting by decide)]
      rfl
    | ⟨1, _⟩ => exact (dot_S512x1024_S1024x1024_S512x1024_1_1_0_0_n_n.rhsIdx_val_of_single rfl _ _).trans (contrEquiv1_symm_val dot_S512x1024_S1024x1024_S512x1024_1_1_0_0_n_n 1024 rfl rfl k)

/-- rows_by_rows_1024: entry (i, j) of the product is the sum over k of the left operand at (i, k) times the right at (j, k). -/
theorem rows_by_rows_1024 {φ₁ φ₂ : FTy} (lhs : FVec Ideal S1024x1024 φ₁) (rhs : FVec Ideal S1024x1024 φ₂) (i : Fin 1024) (j : Fin 1024) :
    matmul dot_S1024x1024_S1024x1024_S1024x1024_1_1_0_0_n_n none lhs rhs (constant (F := Ideal) S1024x1024 .f32 0x00000000#32) (ix2 i j)
      = ∑ k : Fin 1024, lhs (ix2 i k) * rhs (ix2 j k) := by
  refine Cert.LibContractSum.matmul_zero_sum dot_S1024x1024_S1024x1024_S1024x1024_1_1_0_0_n_n none 1024 rfl rfl lhs rhs (ix2 i j)
    (fun k => ix2 i k) (fun k => ix2 j k) (fun k => ?_) (fun k => ?_)
  · funext a; apply Fin.ext
    match a with
    | ⟨0, _⟩ =>
      show (dot_S1024x1024_S1024x1024_S1024x1024_1_1_0_0_n_n.lhsIdx (ix2 i j) _ 0).val = i.val
      unfold DotDims.lhsIdx
      rw [dif_neg (show ¬(0 : Fin S1024x1024.rank) ∈ dot_S1024x1024_S1024x1024_S1024x1024_1_1_0_0_n_n.lhsBatch by decide),
        dif_pos (show (0 : Fin S1024x1024.rank) ∈ dot_S1024x1024_S1024x1024_S1024x1024_1_1_0_0_n_n.lhsNonContracting by decide)]
      rfl
    | ⟨1, _⟩ => exact (dot_S1024x1024_S1024x1024_S1024x1024_1_1_0_0_n_n.lhsIdx_val_of_single rfl _ _).trans (contrEquiv1_symm_val dot_S1024x1024_S1024x1024_S1024x1024_1_1_0_0_n_n 1024 rfl rfl k)
  · funext a; apply Fin.ext
    match a with
    | ⟨0, _⟩ =>
      show (dot_S1024x1024_S1024x1024_S1024x1024_1_1_0_0_n_n.rhsIdx (ix2 i j) _ 0).val = j.val
      unfold DotDims.rhsIdx
      rw [dif_neg (show ¬(0 : Fin S1024x1024.rank) ∈ dot_S1024x1024_S1024x1024_S1024x1024_1_1_0_0_n_n.rhsBatch by decide),
        dif_pos (show (0 : Fin S1024x1024.rank) ∈ dot_S1024x1024_S1024x1024_S1024x1024_1_1_0_0_n_n.rhsNonContracting by decide)]
      rfl
    | ⟨1, _⟩ => exact (dot_S1024x1024_S1024x1024_S1024x1024_1_1_0_0_n_n.rhsIdx_val_of_single rfl _ _).trans (contrEquiv1_symm_val dot_S1024x1024_S1024x1024_S1024x1024_1_1_0_0_n_n 1024 rfl rfl k)

/-- rows_by_columns_512: entry (i, j) of the product is the sum over k of the left operand at (i, k) times the right at (k, j). -/
theorem rows_by_columns_512 {φ₁ φ₂ : FTy} (lhs : FVec Ideal S512x1024 φ₁) (rhs : FVec Ideal S1024x1024 φ₂) (i : Fin 512) (j : Fin 1024) :
    matmul dot_S512x1024_S1024x1024_S512x1024_1_0_0_1_n_n none lhs rhs (constant (F := Ideal) S512x1024 .f32 0x00000000#32) (ix2 i j)
      = ∑ k : Fin 1024, lhs (ix2 i k) * rhs (ix2 k j) := by
  refine Cert.LibContractSum.matmul_zero_sum dot_S512x1024_S1024x1024_S512x1024_1_0_0_1_n_n none 1024 rfl rfl lhs rhs (ix2 i j)
    (fun k => ix2 i k) (fun k => ix2 k j) (fun k => ?_) (fun k => ?_)
  · funext a; apply Fin.ext
    match a with
    | ⟨0, _⟩ =>
      show (dot_S512x1024_S1024x1024_S512x1024_1_0_0_1_n_n.lhsIdx (ix2 i j) _ 0).val = i.val
      unfold DotDims.lhsIdx
      rw [dif_neg (show ¬(0 : Fin S512x1024.rank) ∈ dot_S512x1024_S1024x1024_S512x1024_1_0_0_1_n_n.lhsBatch by decide),
        dif_pos (show (0 : Fin S512x1024.rank) ∈ dot_S512x1024_S1024x1024_S512x1024_1_0_0_1_n_n.lhsNonContracting by decide)]
      rfl
    | ⟨1, _⟩ => exact (dot_S512x1024_S1024x1024_S512x1024_1_0_0_1_n_n.lhsIdx_val_of_single rfl _ _).trans (contrEquiv1_symm_val dot_S512x1024_S1024x1024_S512x1024_1_0_0_1_n_n 1024 rfl rfl k)
  · funext a; apply Fin.ext
    match a with
    | ⟨1, _⟩ =>
      show (dot_S512x1024_S1024x1024_S512x1024_1_0_0_1_n_n.rhsIdx (ix2 i j) _ 1).val = j.val
      unfold DotDims.rhsIdx
      rw [dif_neg (show ¬(1 : Fin S1024x1024.rank) ∈ dot_S512x1024_S1024x1024_S512x1024_1_0_0_1_n_n.rhsBatch by decide),
        dif_pos (show (1 : Fin S1024x1024.rank) ∈ dot_S512x1024_S1024x1024_S512x1024_1_0_0_1_n_n.rhsNonContracting by decide)]
      rfl
    | ⟨0, _⟩ => exact (dot_S512x1024_S1024x1024_S512x1024_1_0_0_1_n_n.rhsIdx_val_of_single rfl _ _).trans (contrEquiv1_symm_val dot_S512x1024_S1024x1024_S512x1024_1_0_0_1_n_n 1024 rfl rfl k)

/-- rows_by_columns_1024: entry (i, j) of the product is the sum over k of the left operand at (i, k) times the right at (k, j). -/
theorem rows_by_columns_1024 {φ₁ φ₂ : FTy} (lhs : FVec Ideal S1024x512 φ₁) (rhs : FVec Ideal S512x1024 φ₂) (i : Fin 1024) (j : Fin 1024) :
    matmul dot_S1024x512_S512x1024_S1024x1024_1_0_0_1_n_n none lhs rhs (constant (F := Ideal) S1024x1024 .f32 0x00000000#32) (ix2 i j)
      = ∑ k : Fin 512, lhs (ix2 i k) * rhs (ix2 k j) := by
  refine Cert.LibContractSum.matmul_zero_sum dot_S1024x512_S512x1024_S1024x1024_1_0_0_1_n_n none 512 rfl rfl lhs rhs (ix2 i j)
    (fun k => ix2 i k) (fun k => ix2 k j) (fun k => ?_) (fun k => ?_)
  · funext a; apply Fin.ext
    match a with
    | ⟨0, _⟩ =>
      show (dot_S1024x512_S512x1024_S1024x1024_1_0_0_1_n_n.lhsIdx (ix2 i j) _ 0).val = i.val
      unfold DotDims.lhsIdx
      rw [dif_neg (show ¬(0 : Fin S1024x512.rank) ∈ dot_S1024x512_S512x1024_S1024x1024_1_0_0_1_n_n.lhsBatch by decide),
        dif_pos (show (0 : Fin S1024x512.rank) ∈ dot_S1024x512_S512x1024_S1024x1024_1_0_0_1_n_n.lhsNonContracting by decide)]
      rfl
    | ⟨1, _⟩ => exact (dot_S1024x512_S512x1024_S1024x1024_1_0_0_1_n_n.lhsIdx_val_of_single rfl _ _).trans (contrEquiv1_symm_val dot_S1024x512_S512x1024_S1024x1024_1_0_0_1_n_n 512 rfl rfl k)
  · funext a; apply Fin.ext
    match a with
    | ⟨1, _⟩ =>
      show (dot_S1024x512_S512x1024_S1024x1024_1_0_0_1_n_n.rhsIdx (ix2 i j) _ 1).val = j.val
      unfold DotDims.rhsIdx
      rw [dif_neg (show ¬(1 : Fin S512x1024.rank) ∈ dot_S1024x512_S512x1024_S1024x1024_1_0_0_1_n_n.rhsBatch by decide),
        dif_pos (show (1 : Fin S512x1024.rank) ∈ dot_S1024x512_S512x1024_S1024x1024_1_0_0_1_n_n.rhsNonContracting by decide)]
      rfl
    | ⟨0, _⟩ => exact (dot_S1024x512_S512x1024_S1024x1024_1_0_0_1_n_n.rhsIdx_val_of_single rfl _ _).trans (contrEquiv1_symm_val dot_S1024x512_S512x1024_S1024x1024_1_0_0_1_n_n 512 rfl rfl k)

end Cert.KernelIdeal.Products

end
-- ==== Proof.LibColumnLayout.lean ====
/-
  Column ("keepdims") layouts read at an index.

  A row-wise reduction of an [a, b] array leaves one number per row, a vector of shape [a].  To use it again against
  the [a, b] array it is first viewed as a column [a, 1] and the column is then repeated along its unit axis.  The two
  lemmas below say what those two steps read at an index written by its coordinates: the column at (i, u) is the
  vector at i, and the repeated column at (p, c) is the column at (p, u), whatever the column coordinate c is.  Both
  hold for any element type and any extents a and b.
-/
import Idealize.ShloMosaic.Lib.Pipeline.Value
import Idealize.ShloMosaic.Lib.ValueIdx

namespace Cert.Lib.ColumnLayout

open Idealize.ShloMosaic Idealize.ShloMosaic.ValueIdx

variable {α : Type}

/-- A vector of shape [a] cast to the column [a, 1] reads, at (i, u), the vector at i: the row-major position of
    (i, u) in [a, 1] is i · 1 + u, and u is 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along its unit axis to [a, b] reads, at (p, c), the column at (p, u): on the first axis
    the coordinate is kept (when a = 1 it is 0 on both sides), on the unit axis the operand's coordinate is 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Cert.Lib.ColumnLayout
-- ==== Proof.LibSoftmaxRow.lean ====
/-
  One row of a softmax on the extended reals.

  A softmax along a row is computed in three passes: the greatest entry of the row, the exponentials of the
  entries after that greatest entry is subtracted, and the quotient of each exponential by their sum.  The greatest
  entry is taken as a running maximum that starts from −∞, so it is written here as the fold of `max` from the f32
  word of −∞ over the row's positions.  Nothing below assumes the entries are finite: the statements are identities
  between the same operations of the extended reals, whatever values they take.

  An array program sometimes guards the greatest entry once more against −∞ and starts the sum from the word of
  zero; both are the identity on the extended reals, which `softmaxRow_guarded` records.
-/
import Idealize.ShloMosaic.PureOps.Ideal
import Idealize.ShloMosaic.PureOps.Ideal.Laws

noncomputable section

open scoped BigOperators

namespace Cert.Lib.SoftmaxRow

open Idealize.ShloMosaic

/-- The f32 word of −∞ is the least extended real, so the greater of it and `x` is `x`. -/
theorem max_negInf_left (x : EReal) : max (Ideal.ofBits .f32 0xFF800000#32) x = x := by
  have h : Ideal.ofBits .f32 0xFF800000#32 = (⊥ : EReal) := by simp [Ideal.ofBits, Ideal.ieee]
  rw [h]
  exact max_eq_right bot_le

/-- The greatest entry of a finite row, as a running maximum from −∞. -/
def rowMax {C : ℕ} (f : Fin C → EReal) : EReal :=
  (Finset.univ : Finset (Fin C)).fold max (Ideal.ofBits .f32 0xFF800000#32) f

/-- Entry `p` of the softmax of the row `f`: the exponential of `f p` less the row's greatest entry, over the sum
    of those exponentials along the row. -/
def softmaxRow {C : ℕ} (f : Fin C → EReal) (p : Fin C) : EReal :=
  Ideal.div (Ideal.exp (f p - rowMax f)) (∑ q : Fin C, Ideal.exp (f q - rowMax f))

/-- Guarding the greatest entry against −∞ once more, and starting the sum from zero, changes nothing. -/
theorem softmaxRow_guarded {C : ℕ} (f : Fin C → EReal) (p : Fin C) :
    Ideal.div (Ideal.exp (f p - max (Ideal.ofBits .f32 0xFF800000#32) (rowMax f)))
        (Ideal.ofBits .f32 0x00000000#32 + ∑ q : Fin C, Ideal.exp (f q - max (Ideal.ofBits .f32 0xFF800000#32) (rowMax f)))
      = softmaxRow f p := by
  rw [max_negInf_left, Ideal.ofBits_zero_f32, zero_add]
  rfl

end Cert.Lib.SoftmaxRow

end
-- ==== Proof.LibSoftmaxLanes.lean ====
/-
  A softmax along the lanes (the last axis) of a matrix, in the operations a kernel body and an array program use,
  read at an index on the extended reals.  Over any extents.

  A kernel body takes the row's greatest entry by a reduction along the lanes from −∞, views the vector of those
  as a column, repeats the column along the lanes, subtracts, exponentiates, sums along the lanes from zero, views and
  repeats that column too, and divides.  Read at (r, p) this is entry p of the softmax of row r (`softmaxRow`).
  An array program takes the greatest entry by a fold over the last axis of a rank-3 array from −∞; read at (n, r)
  that is the same running maximum of row (n, r).
-/
import Idealize.ShloMosaic.PureOps.Ideal.Laws
import Idealize.ShloMosaic.Lib.ValueIdx
import proofs.«148050_j57140244906000_2_alg».proof.Proof.LibColumnLayout
import proofs.«148050_j57140244906000_2_alg».proof.Proof.LibSoftmaxRow

noncomputable section

open scoped BigOperators

namespace Cert.Lib.SoftmaxLanes

open Idealize.ShloMosaic Idealize.ShloMosaic.ValueIdx Cert.Lib.SoftmaxRow Cert.Lib.ColumnLayout

variable {N R C : ℕ}

/-- The reduced index `r` of a matrix with lane `q` put back is `(r, q)`. -/
theorem lift_lane (h : (⟨2, ![R, C]⟩ : Shape).Reduces [1] ⟨1, ![R]⟩) (r : Fin R) (q : Fin C) :
    h.lift (ix1 r) q = ix2 r q := by
  funext c; apply Fin.ext
  match c with
  | ⟨0, _⟩ => rfl
  | ⟨1, _⟩ => rfl

/-- The reduced index `(n, r)` of a rank-3 array with the last coordinate `q` put back is `(n, r, q)`. -/
theorem lift_last (h : (⟨3, ![N, R, C]⟩ : Shape).Reduces [2] ⟨2, ![N, R]⟩) (n : Fin N) (r : Fin R) (q : Fin C) :
    h.lift (ix2 n r) q = ix3 n r q := by
  funext c; apply Fin.ext
  match c with
  | ⟨0, _⟩ => rfl
  | ⟨1, _⟩ => rfl
  | ⟨2, _⟩ => rfl

/-- A kernel's reduction by maximum along the lanes from −∞, at row `r`: the running maximum of that row. -/
theorem lanes_max_apply (A : FVec Ideal ⟨2, ![R, C]⟩ .f32) (h : (⟨2, ![R, C]⟩ : Shape).Reduces [1] ⟨1, ![R]⟩)
    (hφ : FKind.Formats .f32) (hacc : (0xFF800000#32 : BitVec 32) = FKind.maximumf.neutral .f32 hφ) (r : Fin R) :
    multiReduction .maximumf [1] ⟨1, ![R]⟩ A 0xFF800000#32 h hφ hacc (ix1 r) = rowMax (fun q => A (ix2 r q)) := by
  refine (Ideal.multiReduction_maximumf_single A 0xFF800000#32 h hφ hacc (ix1 r)).trans ?_
  have hf : (A ∘ h.lift (ix1 r)) = fun q : Fin C => A (ix2 r q) := funext fun q => congrArg A (lift_lane h r q)
  exact congrArg (fun f => Finset.fold max (Ideal.ofBits .f32 0xFF800000#32) f (Finset.univ : Finset (Fin C))) hf

/-- A kernel's reduction by sum along the lanes from zero, at row `r`: the sum of that row. -/
theorem lanes_sum_apply (A : FVec Ideal ⟨2, ![R, C]⟩ .f32) (h : (⟨2, ![R, C]⟩ : Shape).Reduces [1] ⟨1, ![R]⟩)
    (hφ : FKind.Formats .f32) (hacc : (0x00000000#32 : BitVec 32) = FKind.add.neutral .f32 hφ) (r : Fin R) :
    multiReduction .add [1] ⟨1, ![R]⟩ A 0x00000000#32 h hφ hacc (ix1 r) = ∑ q : Fin C, A (ix2 r q) := by
  refine (Ideal.multiReduction_add_single A 0x00000000#32 h hφ hacc (ix1 r)).trans ?_
  exact Finset.sum_congr rfl fun q _ => congrArg A (lift_lane h r q)

/-- A vector of one number per row, viewed as a column and repeated along the lanes, reads at `(r, p)` the number
    of row `r`. -/
theorem column_repeat_apply {α : Type} (v : (⟨1, ![R]⟩ : Shape).Idx → α) (hc : (⟨1, ![R]⟩ : Shape).ShapeCasts ⟨2, ![R, 1]⟩)
    (hb : (⟨2, ![R, 1]⟩ : Shape).Broadcasts ⟨2, ![R, C]⟩) (r : Fin R) (p : Fin C) :
    broadcastTo ⟨2, ![R, C]⟩ (shapeCast ⟨2, ![R, 1]⟩ v hc) hb (ix2 r p) = v (ix1 r) :=
  (broadcastTo_a1_ab_apply _ hb r p (0 : Fin 1)).trans (shapeCast_a_a1_apply v hc r (0 : Fin 1))

/-- THE LANE SOFTMAX of a kernel body, read at `(r, p)`: entry `p` of the softmax of row `r`. -/
theorem lanes_softmax_apply (A : FVec Ideal ⟨2, ![R, C]⟩ .f32) (h : (⟨2, ![R, C]⟩ : Shape).Reduces [1] ⟨1, ![R]⟩)
    (hφ : FKind.Formats .f32) (hmax : (0xFF800000#32 : BitVec 32) = FKind.maximumf.neutral .f32 hφ)
    (hadd : (0x00000000#32 : BitVec 32) = FKind.add.neutral .f32 hφ)
    (hc : (⟨1, ![R]⟩ : Shape).ShapeCasts ⟨2, ![R, 1]⟩) (hb : (⟨2, ![R, 1]⟩ : Shape).Broadcasts ⟨2, ![R, C]⟩)
    (r : Fin R) (p : Fin C) :
    divf (exp (subf A (broadcastTo ⟨2, ![R, C]⟩ (shapeCast ⟨2, ![R, 1]⟩
        (multiReduction .maximumf [1] ⟨1, ![R]⟩ A 0xFF800000#32 h hφ hmax) hc) hb)))
      (broadcastTo ⟨2, ![R, C]⟩ (shapeCast ⟨2, ![R, 1]⟩
        (multiReduction .add [1] ⟨1, ![R]⟩ (exp (subf A (broadcastTo ⟨2, ![R, C]⟩ (shapeCast ⟨2, ![R, 1]⟩
          (multiReduction .maximumf [1] ⟨1, ![R]⟩ A 0xFF800000#32 h hφ hmax) hc) hb))) 0x00000000#32 h hφ hadd) hc) hb)
      (ix2 r p)
    = softmaxRow (fun q => A (ix2 r q)) p := by
  have hM : ∀ q : Fin C, (broadcastTo ⟨2, ![R, C]⟩ (shapeCast ⟨2, ![R, 1]⟩
      (multiReduction .maximumf [1] ⟨1, ![R]⟩ A 0xFF800000#32 h hφ hmax) hc) hb) (ix2 r q) = rowMax (fun q' => A (ix2 r q')) :=
    fun q => (column_repeat_apply _ hc hb r q).trans (lanes_max_apply A h hφ hmax r)
  have hE : ∀ q : Fin C, (exp (subf A (broadcastTo ⟨2, ![R, C]⟩ (shapeCast ⟨2, ![R, 1]⟩
      (multiReduction .maximumf [1] ⟨1, ![R]⟩ A 0xFF800000#32 h hφ hmax) hc) hb))) (ix2 r q)
        = Ideal.exp (A (ix2 r q) - rowMax (fun q' => A (ix2 r q'))) := fun q =>
    congrArg (fun m => Ideal.exp (A (ix2 r q) - m)) (hM q)
  have hS := (column_repeat_apply (multiReduction .add [1] ⟨1, ![R]⟩ (exp (subf A (broadcastTo ⟨2, ![R, C]⟩ (shapeCast ⟨2, ![R, 1]⟩
      (multiReduction .maximumf [1] ⟨1, ![R]⟩ A 0xFF800000#32 h hφ hmax) hc) hb))) 0x00000000#32 h hφ hadd) hc hb r p).trans
    ((lanes_sum_apply _ h hφ hadd r).trans (Finset.sum_congr rfl fun q _ => hE q))
  show Ideal.div _ _ = _
  rw [hS]
  exact congrArg (fun e => Ideal.div e _) (hE p)

/-- An array program's fold by maximum over the last axis from −∞, at `(n, r)`: the running maximum of that row. -/
theorem host_last_max_apply (B : FVec Ideal ⟨3, ![N, R, C]⟩ .f32) (h' : (⟨3, ![N, R, C]⟩ : Shape).ReducesTo [2] ⟨2, ![N, R]⟩)
    (h : (⟨3, ![N, R, C]⟩ : Shape).Reduces [2] ⟨2, ![N, R]⟩) (hu : 0 < (⟨0, ![]⟩ : Shape).numel) (n : Fin N) (r : Fin R) :
    Host.reduce FloatOps.maximumf B (constant (F := Ideal) (⟨0, ![]⟩ : Shape) .f32 0xFF800000#32) h' hu (ix2 n r)
      = rowMax (fun q => B (ix3 n r q)) := by
  rw [Host.reduce_eq_fold_single FloatOps.maximumf B _ h' h hu]
  have hf : (B ∘ h.lift (ix2 n r)) = fun q : Fin C => B (ix3 n r q) := funext fun q => congrArg B (lift_last h n r q)
  exact congrArg (fun f => Finset.fold max (Ideal.ofBits .f32 0xFF800000#32) f (Finset.univ : Finset (Fin C))) hf

end Cert.Lib.SoftmaxLanes

end
-- ==== Proof.KernelPoints.lean ====
/-
  What the three kernel bodies compute at one grid point, entry by entry, on the extended reals.

  A projection body takes a block x of rows, the weight matrix w and the bias row b, and stores tanh(x wᵀ + b): entry
  (r, e) is tanh(Σ_k x(r, k) · w(e, k) + b(e)).  The changes of float format around the product are the identity on the
  extended reals.

  The fused body takes the two projected blocks ct (rows r) and pt (rows p), the two mask rows cm and pm, and the two
  feature blocks cf and pf.  Its masked affinity at (r, p) is −1e9 where cm(r) · pm(p) equals zero and Σ_k ct(r, k) ·
  pt(p, k) elsewhere.  The first attention matrix is the softmax of the masked affinity along p, the second one the
  softmax along r of its transpose; each attended block is the attention matrix times the other side's feature
  block.  Each statement below reads one stored value at an index written by its coordinates, in terms of the values
  the body loaded, read at coordinates.
-/
import proofs.«148050_j57140244906000_2_alg».proof.Proof.Gen.KernelIdeal.Skeleton
import proofs.«148050_j57140244906000_2_alg».proof.Proof.Products
import proofs.«148050_j57140244906000_2_alg».proof.Proof.LibColumnLayout
import proofs.«148050_j57140244906000_2_alg».proof.Proof.LibSoftmaxRow
import proofs.«148050_j57140244906000_2_alg».proof.Proof.LibSoftmaxLanes
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.KernelIdeal.Points

open Cert.KernelIdeal Cert.KernelIdeal.Gen Idealize.ShloMosaic Idealize.ShloMosaic.ValueIdx
open Cert.Lib.SoftmaxRow Cert.Lib.SoftmaxLanes Cert.Lib.ColumnLayout Cert.KernelIdeal.Products

/-! ## The projection bodies -/

/-- Region 0's stored block at (u, r, e): tanh of row r of the block against row e of the weights, plus the bias at e. -/
theorem project0_apply (x : Vec Ideal S1x512x1024 .f32) (w : Vec Ideal S1024x1024 .f32) (b2 : Vec Ideal S1x1024 .f32)
    (u : Fin 1) (r : Fin 512) (e : Fin 1024) :
    k0_pay1 x w b2 (ix3 u r e)
      = Ideal.tanh ((∑ k : Fin 1024, x (ix3 (0 : Fin 1) r k) * w (ix2 e k)) + b2 (ix2 (0 : Fin 1) e)) := by
  unfold k0_pay1
  refine (shapeCast_ab_1ab_apply _ shapeCasts_S512x1024_S1x512x1024 u r e).trans ?_
  refine congrArg Ideal.tanh ?_
  refine congrArg₂ (fun a c : EReal => a + c) ?_ ?_
  · refine (rows_by_rows_512 _ _ r e).trans (Finset.sum_congr rfl fun k _ => ?_)
    exact congrArg (fun a : EReal => a * w (ix2 e k)) (shapeCast_1ab_ab_apply x shapeCasts_S1x512x1024_S512x1024 r k)
  · exact (broadcastTo_1b_ab_apply _ broadcasts_S1x1024_S512x1024 r e).trans (congrFun (shapeCast_self b2 shapeCasts_S1x1024_S1x1024) _)

/-- Region 1's stored block at (u, r, e): the same with 1024 rows. -/
theorem project1_apply (x : Vec Ideal S1x1024x1024 .f32) (w : Vec Ideal S1024x1024 .f32) (b2 : Vec Ideal S1x1024 .f32)
    (u : Fin 1) (r : Fin 1024) (e : Fin 1024) :
    k1_pay1 x w b2 (ix3 u r e)
      = Ideal.tanh ((∑ k : Fin 1024, x (ix3 (0 : Fin 1) r k) * w (ix2 e k)) + b2 (ix2 (0 : Fin 1) e)) := by
  unfold k1_pay1
  refine (shapeCast_ab_1ab_apply _ shapeCasts_S1024x1024_S1x1024x1024 u r e).trans ?_
  refine congrArg Ideal.tanh ?_
  refine congrArg₂ (fun a c : EReal => a + c) ?_ ?_
  · refine (rows_by_rows_1024 _ _ r e).trans (Finset.sum_congr rfl fun k _ => ?_)
    exact congrArg (fun a : EReal => a * w (ix2 e k)) (shapeCast_1ab_ab_apply x shapeCasts_S1x1024x1024_S1024x1024 r k)
  · exact (broadcastTo_1b_ab_apply _ broadcasts_S1x1024_S1024x1024 r e).trans (congrFun (shapeCast_self b2 shapeCasts_S1x1024_S1x1024) _)

/-! ## The fused body -/

/-- A masked entry: the fill where the mask product equals zero, the score elsewhere; congruence in the product and the score. -/
theorem masked_congr {a a' s s' : EReal} (z n : EReal) (ha : a = a') (hs : s = s') :
    Scalar.select (FloatOps.cmpf (F := Ideal) (φ := .f32) .oeq a z) n s = Scalar.select (FloatOps.cmpf (F := Ideal) (φ := .f32) .oeq a' z) n s' := by
  rw [ha, hs]

/-- The masked affinity at (r, p). -/
theorem affinity_apply (ct : Vec Ideal S1x512x1024 .bf16) (pt : Vec Ideal S1x1024x1024 .bf16) (cm : Vec Ideal S1x1x512 .f32)
    (pm : Vec Ideal S1x1x1024 .f32) (r : Fin 512) (p : Fin 1024) :
    k2_pay5 ct pt cm pm (ix2 r p)
      = Scalar.select (FloatOps.cmpf (F := Ideal) (φ := .f32) .oeq (cm (ix3 (0 : Fin 1) (0 : Fin 1) r) * pm (ix3 (0 : Fin 1) (0 : Fin 1) p))
            (Ideal.ofBits .f32 0x00000000#32))
          (Ideal.ofBits .f32 0xCE6E6B28#32)
          (∑ k : Fin 1024, ct (ix3 (0 : Fin 1) r k) * pt (ix3 (0 : Fin 1) p k)) := by
  unfold k2_pay5
  refine masked_congr _ _ ?_ ?_
  · refine congrArg₂ (fun a c : EReal => a * c) ?_ ?_
    · exact (broadcastTo_a1_ab_apply _ broadcasts_S512x1_S512x1024 r p (0 : Fin 1)).trans
        ((transpose_ix2_apply _ transposes_S1x512_p1_0_S512x1 r (0 : Fin 1)).trans
          (shapeCast_1ab_ab_apply cm shapeCasts_S1x1x512_S1x512 (0 : Fin 1) r))
    · exact (broadcastTo_1b_ab_apply _ broadcasts_S1x1024_S512x1024 r p).trans
        (shapeCast_1ab_ab_apply pm shapeCasts_S1x1x1024_S1x1024 (0 : Fin 1) p)
  · refine (rows_by_rows_512 _ _ r p).trans (Finset.sum_congr rfl fun k _ => ?_)
    exact congrArg₂ (fun a c : EReal => a * c) (shapeCast_1ab_ab_apply ct shapeCasts_S1x512x1024_S512x1024 r k)
      (shapeCast_1ab_ab_apply pt shapeCasts_S1x1024x1024_S1024x1024 p k)

/-- The first attention matrix at (r, p): entry p of the softmax of row r of the masked affinity. -/
theorem attention_rows_apply (ct : Vec Ideal S1x512x1024 .bf16) (pt : Vec Ideal S1x1024x1024 .bf16) (cm : Vec Ideal S1x1x512 .f32)
    (pm : Vec Ideal S1x1x1024 .f32) (r : Fin 512) (p : Fin 1024) :
    k2_pay6 ct pt cm pm (ix2 r p) = softmaxRow (fun q : Fin 1024 => k2_pay5 ct pt cm pm (ix2 r q)) p := by
  unfold k2_pay6
  exact lanes_softmax_apply (k2_pay5 ct pt cm pm) _ _ _ _ _ _ r p

/-- The second attention matrix at (p, r): entry r of the softmax of column p of the masked affinity `A`. -/
theorem attention_columns_apply (A : FVec Ideal S512x1024 .f32) (p : Fin 1024) (r : Fin 512) :
    k2_pay2 A (ix2 p r) = softmaxRow (fun q : Fin 512 => A (ix2 q p)) r := by
  unfold k2_pay2
  refine (lanes_softmax_apply (transpose S1024x512 [1, 0] A transposes_S512x1024_p1_0_S1024x512) _ _ _ _ _ _ p r).trans ?_
  exact congrArg (fun f => softmaxRow f r) (funext fun q => transpose_ix2_apply A transposes_S512x1024_p1_0_S1024x512 p q)

/-- The first attention block as stored, at (u, r, p). -/
theorem stored_attention_rows_apply (ct : Vec Ideal S1x512x1024 .bf16) (pt : Vec Ideal S1x1024x1024 .bf16) (cm : Vec Ideal S1x1x512 .f32)
    (pm : Vec Ideal S1x1x1024 .f32) (u : Fin 1) (r : Fin 512) (p : Fin 1024) :
    k2_pay7 ct pt cm pm (ix3 u r p) = k2_pay6 ct pt cm pm (ix2 r p) := by
  unfold k2_pay7
  exact shapeCast_ab_1ab_apply _ shapeCasts_S512x1024_S1x512x1024 u r p

/-- The second attention block as stored, at (u, p, r). -/
theorem stored_attention_columns_apply (A : FVec Ideal S512x1024 .f32) (u : Fin 1) (p : Fin 1024) (r : Fin 512) :
    k2_pay3 A (ix3 u p r) = k2_pay2 A (ix2 p r) := by
  unfold k2_pay3
  exact shapeCast_ab_1ab_apply _ shapeCasts_S1024x512_S1x1024x512 u p r

/-- The first attended block at (r, d): row r of the first attention matrix against column d of the feature block. -/
theorem attended_rows_apply (ct : Vec Ideal S1x512x1024 .bf16) (pt : Vec Ideal S1x1024x1024 .bf16) (cm : Vec Ideal S1x1x512 .f32)
    (pm : Vec Ideal S1x1x1024 .f32) (pf : Vec Ideal S1x1024x1024 .bf16) (r : Fin 512) (d : Fin 1024) :
    k2_pay8 ct pt cm pm pf (ix2 r d) = ∑ p : Fin 1024, k2_pay6 ct pt cm pm (ix2 r p) * pf (ix3 (0 : Fin 1) p d) := by
  unfold k2_pay8
  refine (rows_by_columns_512 _ _ r d).trans (Finset.sum_congr rfl fun p _ => ?_)
  exact congrArg (fun a : EReal => k2_pay6 ct pt cm pm (ix2 r p) * a) (shapeCast_1ab_ab_apply pf shapeCasts_S1x1024x1024_S1024x1024 p d)

/-- The first attended block as stored, at (u, r, d). -/
theorem stored_attended_rows_apply (v : FVec Ideal S512x1024 .f32) (u : Fin 1) (r : Fin 512) (d : Fin 1024) :
    k2_pay1 v (ix3 u r d) = v (ix2 r d) := by
  unfold k2_pay1
  exact shapeCast_ab_1ab_apply _ shapeCasts_S512x1024_S1x512x1024 u r d

/-- The second attended block as stored, at (u, p, d): row p of the second attention matrix against column d of the
    feature block. -/
theorem attended_columns_apply (A : FVec Ideal S512x1024 .f32) (cf : Vec Ideal S1x512x1024 .bf16) (u : Fin 1) (p : Fin 1024) (d : Fin 1024) :
    k2_pay4 A cf (ix3 u p d) = ∑ r : Fin 512, k2_pay2 A (ix2 p r) * cf (ix3 (0 : Fin 1) r d) := by
  unfold k2_pay4
  refine (shapeCast_ab_1ab_apply _ shapeCasts_S1024x1024_S1x1024x1024 u p d).trans ?_
  refine (rows_by_columns_1024 _ _ p d).trans (Finset.sum_congr rfl fun r _ => ?_)
  exact congrArg (fun a : EReal => k2_pay2 A (ix2 p r) * a) (shapeCast_1ab_ab_apply cf shapeCasts_S1x512x1024_S512x1024 r d)

end Cert.KernelIdeal.Points

end
-- ==== Proof.RefPoints.lean ====
/-
  The stages of the array program read at an index written by its coordinates, on the extended reals.

  Each projection at (b, r, e) is tanh(Σ_k x(b, r, k) · w(e, k) + bias(e)).  The masked affinity at (b, r, p) is −1e9
  where mask₁(b, r) · mask₂(b, p) equals zero and Σ_k ct(b, r, k) · pt(b, p, k) elsewhere.  The two attention arrays
  are the softmax of the masked affinity along p and, after the two last axes are exchanged, along r; the program
  guards each row's greatest entry against −∞ once more and starts each sum from zero, which changes nothing.  Each
  attended array is a product of an attention array with a feature array over the shared axis.
-/
import proofs.«148050_j57140244906000_2_alg».proof.Proof.Gen.ReferenceIdeal.Read
import proofs.«148050_j57140244906000_2_alg».proof.Proof.LibSoftmaxRow
import proofs.«148050_j57140244906000_2_alg».proof.Proof.LibSoftmaxLanes
import Idealize.ShloMosaic.Lib.ValueIdx
import Idealize.ShloMosaic.PureOps.Ideal.Laws

noncomputable section

open scoped BigOperators

namespace Cert.ReferenceIdeal.Points

open Cert.ReferenceIdeal Cert.ReferenceIdeal.Gen Cert.ReferenceIdeal.Read Idealize.ShloMosaic Idealize.ShloMosaic.ValueIdx
open Cert.Lib.SoftmaxRow Cert.Lib.SoftmaxLanes

variable (x0 : (⟨S32x512x1024, .f32⟩ : BufTy).Contents (Elt Ideal)) (x1 : (⟨S32x1024x1024, .f32⟩ : BufTy).Contents (Elt Ideal)) (x2 : (⟨S32x512, .f32⟩ : BufTy).Contents (Elt Ideal)) (x3 : (⟨S32x1024, .f32⟩ : BufTy).Contents (Elt Ideal))
  (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal))

/-- The first projection at (b, r, e). -/
theorem projection0_apply (b : Fin 32) (r : Fin 512) (e : Fin 1024) :
    val_main_v4 (F := Ideal) x0 x4 x5 (ix3 b r e)
      = Ideal.tanh ((∑ k : Fin 1024, x0 (ix3 b r k) * x4 (ix2 e k)) + x5 (ix1 e)) := by
  rw [val_main_v4_apply, val_main_v3_apply, val_main_v0_apply, val_main_v2_apply, val_main_v1_apply]
  have e1 : ∀ k, lidx_main_v0 (ix3 b r e) k = ix3 b r k := fun k => funext fun a => match a with | ⟨0, _⟩ => rfl | ⟨1, _⟩ => rfl | ⟨2, _⟩ => rfl
  have e2 : ∀ k, ridx_main_v0 (ix3 b r e) k = ix2 e k := fun k => funext fun a => match a with | ⟨0, _⟩ => rfl | ⟨1, _⟩ => rfl
  have e3 : idx_main_v1 (idx_main_v2 (ix3 b r e)) = ix1 e := funext fun a => match a with | ⟨0, _⟩ => rfl
  simp only [e1, e2, e3]
  rfl

/-- The second projection at (b, p, e). -/
theorem projection1_apply (b : Fin 32) (p : Fin 1024) (e : Fin 1024) :
    val_main_v9 (F := Ideal) x1 x6 x7 (ix3 b p e)
      = Ideal.tanh ((∑ k : Fin 1024, x1 (ix3 b p k) * x6 (ix2 e k)) + x7 (ix1 e)) := by
  rw [val_main_v9_apply, val_main_v8_apply, val_main_v5_apply, val_main_v7_apply, val_main_v6_apply]
  have e1 : ∀ k, lidx_main_v5 (ix3 b p e) k = ix3 b p k := fun k => funext fun a => match a with | ⟨0, _⟩ => rfl | ⟨1, _⟩ => rfl | ⟨2, _⟩ => rfl
  have e2 : ∀ k, ridx_main_v5 (ix3 b p e) k = ix2 e k := fun k => funext fun a => match a with | ⟨0, _⟩ => rfl | ⟨1, _⟩ => rfl
  have e3 : idx_main_v6 (idx_main_v7 (ix3 b p e)) = ix1 e := funext fun a => match a with | ⟨0, _⟩ => rfl
  simp only [e1, e2, e3]
  rfl

/-- The masked affinity at (b, r, p). -/
theorem affinity_apply (b : Fin 32) (r : Fin 512) (p : Fin 1024) :
    val_main_v18 (F := Ideal) x0 x1 x2 x3 x4 x5 x6 x7 (ix3 b r p)
      = Scalar.select (FloatOps.cmpf (F := Ideal) (φ := .f32) .oeq (x2 (ix2 b r) * x3 (ix2 b p)) (Ideal.ofBits .f32 0x00000000#32))
          (Ideal.ofBits .f32 0xCE6E6B28#32)
          (∑ k : Fin 1024, val_main_v4 (F := Ideal) x0 x4 x5 (ix3 b r k) * val_main_v9 (F := Ideal) x1 x6 x7 (ix3 b p k)) := by
  rw [val_main_v18_apply, val_main_v17_apply, val_main_v15_apply, val_main_v13_apply, val_main_v11_apply, val_main_v14_apply,
    val_main_v12_apply, val_main_v16_apply, val_main_cst_apply, val_main_call0_v1_apply, val_main_call0_v0_apply,
    val_main_cst_0_apply, val_main_v10_apply]
  have e1 : idx_main_v11 (idx_main_v13 (ix3 b r p)) = ix2 b r := funext fun a => match a with | ⟨0, _⟩ => rfl | ⟨1, _⟩ => rfl
  have e2 : idx_main_v12 (idx_main_v14 (ix3 b r p)) = ix2 b p := funext fun a => match a with | ⟨0, _⟩ => rfl | ⟨1, _⟩ => rfl
  have e3 : ∀ k, lidx_main_v10 (ix3 b r p) k = ix3 b r k := fun k => funext fun a => match a with | ⟨0, _⟩ => rfl | ⟨1, _⟩ => rfl | ⟨2, _⟩ => rfl
  have e4 : ∀ k, ridx_main_v10 (ix3 b r p) k = ix3 b p k := fun k => funext fun a => match a with | ⟨0, _⟩ => rfl | ⟨1, _⟩ => rfl | ⟨2, _⟩ => rfl
  simp only [e1, e2, e3, e4]
  rfl

/-- The greatest entry of row (b, r) of the masked affinity, as the program's fold takes it. -/
theorem row_max_apply (b : Fin 32) (r : Fin 512) :
    val_main_v19 (F := Ideal) x0 x1 x2 x3 x4 x5 x6 x7 (ix2 b r) = rowMax (fun q : Fin 1024 => val_main_v18 (F := Ideal) x0 x1 x2 x3 x4 x5 x6 x7 (ix3 b r q)) := by
  unfold val_main_v19 val_main_cst_1
  exact host_last_max_apply _ _ (by decide) _ b r

/-- The first attention array at (b, r, p): entry p of the softmax of row (b, r) of the masked affinity. -/
theorem attention_rows_apply (b : Fin 32) (r : Fin 512) (p : Fin 1024) :
    val_main_v29 (F := Ideal) x0 x1 x2 x3 x4 x5 x6 x7 (ix3 b r p)
      = softmaxRow (fun q : Fin 1024 => val_main_v18 (F := Ideal) x0 x1 x2 x3 x4 x5 x6 x7 (ix3 b r q)) p := by
  have hM : ∀ q : Fin 1024, val_main_v23 (F := Ideal) x0 x1 x2 x3 x4 x5 x6 x7 (ix3 b r q)
      = max (Ideal.ofBits .f32 0xFF800000#32) (rowMax (fun q' : Fin 1024 => val_main_v18 (F := Ideal) x0 x1 x2 x3 x4 x5 x6 x7 (ix3 b r q'))) := fun q => by
    rw [val_main_v23_apply, val_main_v22_apply, val_main_v21_apply, val_main_v20_apply, val_main_cst_2_apply]
    have ei : idx_main_v22 (idx_main_v23 (ix3 b r q)) = ix2 b r := funext fun a => match a with | ⟨0, _⟩ => rfl | ⟨1, _⟩ => rfl
    rw [ei, row_max_apply]
    rfl
  have hE : ∀ q : Fin 1024, val_main_v25 (F := Ideal) x0 x1 x2 x3 x4 x5 x6 x7 (ix3 b r q)
      = Ideal.exp (val_main_v18 (F := Ideal) x0 x1 x2 x3 x4 x5 x6 x7 (ix3 b r q)
          - max (Ideal.ofBits .f32 0xFF800000#32) (rowMax (fun q' : Fin 1024 => val_main_v18 (F := Ideal) x0 x1 x2 x3 x4 x5 x6 x7 (ix3 b r q')))) := fun q => by
    rw [val_main_v25_apply, val_main_v24_apply, hM q]
    rfl
  rw [val_main_v29_apply, val_main_v28_apply, val_main_v27_apply, val_main_v26_apply, val_main_cst_3_apply, hE p]
  have ei : idx_main_v27 (idx_main_v28 (ix3 b r p)) = ix2 b r := funext fun a => match a with | ⟨0, _⟩ => rfl | ⟨1, _⟩ => rfl
  have ek : ∀ k, idx_main_v26 (ix2 b r) k = ix3 b r k := fun k => funext fun a => match a with | ⟨0, _⟩ => rfl | ⟨1, _⟩ => rfl | ⟨2, _⟩ => rfl
  rw [ei]
  simp only [ek, hE]
  exact softmaxRow_guarded _ p

/-- The masked affinity with its two last axes exchanged, at (b, p, r). -/
theorem affinity_transposed_apply (b : Fin 32) (p : Fin 1024) (r : Fin 512) :
    val_main_v30 (F := Ideal) x0 x1 x2 x3 x4 x5 x6 x7 (ix3 b p r) = val_main_v18 (F := Ideal) x0 x1 x2 x3 x4 x5 x6 x7 (ix3 b r p) := by
  rw [val_main_v30_apply]
  exact congrArg _ (funext fun a => match a with | ⟨0, _⟩ => rfl | ⟨1, _⟩ => rfl | ⟨2, _⟩ => rfl)

/-- The greatest entry of column (b, p) of the masked affinity. -/
theorem column_max_apply (b : Fin 32) (p : Fin 1024) :
    val_main_v31 (F := Ideal) x0 x1 x2 x3 x4 x5 x6 x7 (ix2 b p) = rowMax (fun q : Fin 512 => val_main_v18 (F := Ideal) x0 x1 x2 x3 x4 x5 x6 x7 (ix3 b q p)) := by
  unfold val_main_v31 val_main_cst_4
  refine (host_last_max_apply _ _ (by decide) _ b p).trans ?_
  exact congrArg rowMax (funext fun q => affinity_transposed_apply x0 x1 x2 x3 x4 x5 x6 x7 b p q)

/-- The second attention array at (b, p, r): entry r of the softmax of column (b, p) of the masked affinity. -/
theorem attention_columns_apply (b : Fin 32) (p : Fin 1024) (r : Fin 512) :
    val_main_v41 (F := Ideal) x0 x1 x2 x3 x4 x5 x6 x7 (ix3 b p r)
      = softmaxRow (fun q : Fin 512 => val_main_v18 (F := Ideal) x0 x1 x2 x3 x4 x5 x6 x7 (ix3 b q p)) r := by
  have hM : ∀ q : Fin 512, val_main_v35 (F := Ideal) x0 x1 x2 x3 x4 x5 x6 x7 (ix3 b p q)
      = max (Ideal.ofBits .f32 0xFF800000#32) (rowMax (fun q' : Fin 512 => val_main_v18 (F := Ideal) x0 x1 x2 x3 x4 x5 x6 x7 (ix3 b q' p))) := fun q => by
    rw [val_main_v35_apply, val_main_v34_apply, val_main_v33_apply, val_main_v32_apply, val_main_cst_5_apply]
    have ei : idx_main_v34 (idx_main_v35 (ix3 b p q)) = ix2 b p := funext fun a => match a with | ⟨0, _⟩ => rfl | ⟨1, _⟩ => rfl
    rw [ei, column_max_apply]
    rfl
  have hE : ∀ q : Fin 512, val_main_v37 (F := Ideal) x0 x1 x2 x3 x4 x5 x6 x7 (ix3 b p q)
      = Ideal.exp (val_main_v18 (F := Ideal) x0 x1 x2 x3 x4 x5 x6 x7 (ix3 b q p)
          - max (Ideal.ofBits .f32 0xFF800000#32) (rowMax (fun q' : Fin 512 => val_main_v18 (F := Ideal) x0 x1 x2 x3 x4 x5 x6 x7 (ix3 b q' p)))) := fun q => by
    rw [val_main_v37_apply, val_main_v36_apply, hM q, affinity_transposed_apply]
    rfl
  rw [val_main_v41_apply, val_main_v40_apply, val_main_v39_apply, val_main_v38_apply, val_main_cst_6_apply, hE r]
  have ei : idx_main_v39 (idx_main_v40 (ix3 b p r)) = ix2 b p := funext fun a => match a with | ⟨0, _⟩ => rfl | ⟨1, _⟩ => rfl
  have ek : ∀ k, idx_main_v38 (ix2 b p) k = ix3 b p k := fun k => funext fun a => match a with | ⟨0, _⟩ => rfl | ⟨1, _⟩ => rfl | ⟨2, _⟩ => rfl
  rw [ei]
  simp only [ek, hE]
  exact softmaxRow_guarded _ r

/-- The first attended array at (b, r, d). -/
theorem attended_rows_apply (b : Fin 32) (r : Fin 512) (d : Fin 1024) :
    val_main_v42 (F := Ideal) x0 x1 x2 x3 x4 x5 x6 x7 (ix3 b r d)
      = ∑ p : Fin 1024, val_main_v29 (F := Ideal) x0 x1 x2 x3 x4 x5 x6 x7 (ix3 b r p) * x1 (ix3 b p d) := by
  rw [val_main_v42_apply]
  have e1 : ∀ k, lidx_main_v42 (ix3 b r d) k = ix3 b r k := fun k => funext fun a => match a with | ⟨0, _⟩ => rfl | ⟨1, _⟩ => rfl | ⟨2, _⟩ => rfl
  have e2 : ∀ k, ridx_main_v42 (ix3 b r d) k = ix3 b k d := fun k => funext fun a => match a with | ⟨0, _⟩ => rfl | ⟨1, _⟩ => rfl | ⟨2, _⟩ => rfl
  simp only [e1, e2]

/-- The second attended array at (b, p, d). -/
theorem attended_columns_apply (b : Fin 32) (p : Fin 1024) (d : Fin 1024) :
    val_main_v43 (F := Ideal) x0 x1 x2 x3 x4 x5 x6 x7 (ix3 b p d)
      = ∑ r : Fin 512, val_main_v41 (F := Ideal) x0 x1 x2 x3 x4 x5 x6 x7 (ix3 b p r) * x0 (ix3 b r d) := by
  rw [val_main_v43_apply]
  have e1 : ∀ k, lidx_main_v43 (ix3 b p d) k = ix3 b p k := fun k => funext fun a => match a with | ⟨0, _⟩ => rfl | ⟨1, _⟩ => rfl | ⟨2, _⟩ => rfl
  have e2 : ∀ k, ridx_main_v43 (ix3 b p d) k = ix3 b k d := fun k => funext fun a => match a with | ⟨0, _⟩ => rfl | ⟨1, _⟩ => rfl | ⟨2, _⟩ => rfl
  simp only [e1, e2]

end Cert.ReferenceIdeal.Points

end
-- ==== Proof.LibMiddleUnitAxis.lean ====
/-
  Layout operations around a UNIT AXIS in the middle or at the end of a small shape, read at an index written by
  coordinates. Over any element type and any extents `a`, `b`:
    * an `[a, b]` array cast to `[a, 1, b]` read at `(p, u, c)` is the operand at `(p, c)`, and back: an `[a, 1, b]` array
      cast to `[a, b]` read at `(p, c)` is the operand at `(p, 0, c)`;
    * an `[a, 1]` column cast to `[a, 1, 1]` read at `(p, u, v)` is the column at `(p, 0)`;
    * an `[a, 1, 1]` array broadcast to `[a, b, 1]` read at `(p, l, v)` is the operand at `(p, 0, 0)`.
  Each is the library's read-at-an-index lemma of the operation with the row-major arithmetic discharged: a unit axis
  contributes a factor `1` and a coordinate `0` to a row-major position.
-/
import Idealize.ShloMosaic.Lib.Pipeline.Value
import Idealize.ShloMosaic.Lib.ValueIdx

namespace Cert.MiddleUnitAxis

open Idealize.ShloMosaic Idealize.ShloMosaic.ValueIdx

variable {α : Type}

/-- An `[a, b]` array cast to `[a, 1, b]` reads, at `(p, u, c)`, the operand at `(p, c)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (c : Fin b) :
    shapeCast ⟨3, ![a, 1, b]⟩ x h (ix3 p u c) = x (ix2 p c) :=
  shapeCast_apply x h _ _ (by
    have hu : u.val = 0 := by omega
    rw [Shape.rowMajor_val_three, Shape.rowMajor_val_two]
    show p.val * b + c.val = (p.val * 1 + u.val) * b + c.val
    rw [hu, Nat.mul_one, Nat.add_zero])

/-- An `[a, 1, b]` array cast to `[a, b]` reads, at `(p, c)`, the operand at `(p, 0, c)`. -/
theorem shapeCast_a1b_ab_apply {a b : ℕ} (x : (⟨3, ![a, 1, b]⟩ : Shape).Idx → α)
    (h : (⟨3, ![a, 1, b]⟩ : Shape).ShapeCasts ⟨2, ![a, b]⟩) (p : Fin a) (c : Fin b) :
    shapeCast ⟨2, ![a, b]⟩ x h (ix2 p c) = x (ix3 p (0 : Fin 1) c) :=
  shapeCast_apply x h _ _ (by
    rw [Shape.rowMajor_val_three, Shape.rowMajor_val_two]
    show (p.val * 1 + 0) * b + c.val = p.val * b + c.val
    rw [Nat.mul_one, Nat.add_zero])

/-- An `[a, 1]` column cast to `[a, 1, 1]` reads, at `(p, u, v)`, the column at `(p, 0)`. -/
theorem shapeCast_a1_a11_apply {a : ℕ} (x : (⟨2, ![a, 1]⟩ : Shape).Idx → α)
    (h : (⟨2, ![a, 1]⟩ : Shape).ShapeCasts ⟨3, ![a, 1, 1]⟩) (p : Fin a) (u v : Fin 1) :
    shapeCast ⟨3, ![a, 1, 1]⟩ x h (ix3 p u v) = x (ix2 p (0 : Fin 1)) :=
  shapeCast_apply x h _ _ (by
    have hu : u.val = 0 := by omega
    have hv : v.val = 0 := by omega
    rw [Shape.rowMajor_val_three, Shape.rowMajor_val_two]
    show p.val * 1 + 0 = (p.val * 1 + u.val) * 1 + v.val
    rw [hu, hv, Nat.mul_one, Nat.add_zero, Nat.mul_one, Nat.add_zero])

/-- An `[a, 1, 1]` array broadcast to `[a, b, 1]` reads, at `(p, l, v)`, the operand at `(p, 0, 0)`. -/
theorem broadcastTo_a11_ab1_apply {a b : ℕ} (x : (⟨3, ![a, 1, 1]⟩ : Shape).Idx → α)
    (h : (⟨3, ![a, 1, 1]⟩ : Shape).Broadcasts ⟨3, ![a, b, 1]⟩) (p : Fin a) (l : Fin b) (v : Fin 1) :
    broadcastTo ⟨3, ![a, b, 1]⟩ x h (ix3 p l v) = x (ix3 p (0 : Fin 1) (0 : Fin 1)) := by
  refine broadcastTo_apply x h (ix3 p l v) (ix3 p (0 : Fin 1) (0 : Fin 1)) fun ax => ?_
  match ax with
  | ⟨0, _⟩ =>
    show p.val = if a = 1 then 0 else p.val
    split
    · have := p.isLt; omega
    · rfl
  | ⟨1, _⟩ => show 0 = if (1 : ℕ) = 1 then 0 else l.val; rw [if_pos rfl]
  | ⟨2, _⟩ => show 0 = if (1 : ℕ) = 1 then 0 else v.val; rw [if_pos rfl]

end Cert.MiddleUnitAxis
-- ==== Proof.Bridge.lean ====
/-
  Each region's output array is a stage of the array program.

  Region 0 writes, block by block, the first projection of the array program; region 1 the second.  Region 2 reads those
  two arrays, the two feature arrays and the two masks, one batch element per grid point, and writes the two attended
  arrays and the two attention arrays.  At grid point t the blocks are batch element t of each array, so an entry
  (u, r, k) of a block is entry (t, r, k) of its array; with that, each stored value at a point, read at coordinates, is
  the array program's stage at the same coordinates: the masked affinity entry by entry, then each softmax row by row
  (the two sides take the same running maximum and the same sum of the same exponentials), then each attended entry as
  the same sum of products.  No step uses that the inputs are finite.
-/
import proofs.«148050_j57140244906000_2_alg».proof.Proof.Gen.KernelIdeal.Frame
import proofs.«148050_j57140244906000_2_alg».proof.Proof.Blocks
import proofs.«148050_j57140244906000_2_alg».proof.Proof.KernelPoints
import proofs.«148050_j57140244906000_2_alg».proof.Proof.RefPoints
import proofs.«148050_j57140244906000_2_alg».proof.Proof.LibMiddleUnitAxis
import Idealize.ShloMosaic.Lib.ValueLayout
import Idealize.ShloMosaic.Lib.Pipeline.Value

noncomputable section

open scoped BigOperators

namespace Cert.KernelIdeal.Bridge

open Cert.KernelIdeal Cert.KernelIdeal.Gen Idealize.ShloMosaic Idealize.ShloMosaic.TcCoe Idealize.ShloMosaic.ValueIdx
open Cert.Lib.SoftmaxRow
open Cert.ReferenceIdeal.Read (val_main_v4 val_main_v9 val_main_v18 val_main_v29 val_main_v41 val_main_v42 val_main_v43)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-! ## The two projections -/

/-- After region 0 its output array is the array program's first projection of the arrays the region found. -/
theorem region0_array (c : Dev nD) (x0 : FVec Ideal S32x512x1024 .f32) (x4 : FVec Ideal S1024x1024 .f32) (x5 : FVec Ideal S1024 .f32)
    (h0 : V c main_arg0 = x0) (h4 : V c main_arg4 = x4) (hb5 : V c main_v0 = shapeCast S1x1024 x5 shapeCasts_S1024_S1x1024) :
    (dat0 V c).arrAt 3 cfg0.N = val_main_v4 (F := Ideal) x0 x4 x5 := by
  refine Blocks.final0_3 V c _ fun t b hb u r e => ?_
  unfold out0_3
  rw [View.canon_unit_zero hz3]
  simp only [View.ld_unit_zero (S := S1x512x1024) hz3, View.ld_unit_zero (S := S1024x1024) hz2, View.ld_unit_zero (S := S1x1024) hz2]
  refine (Points.project0_apply (iblk0 V c 0 t) (iblk0 V c 1 t) (iblk0 V c 2 t) u r e).trans ?_
  refine Eq.trans ?_ (Cert.ReferenceIdeal.Points.projection0_apply x0 x4 x5 b r e).symm
  refine congrArg Ideal.tanh (congrArg₂ (fun a d : EReal => a + d)
    (Finset.sum_congr rfl fun k _ => congrArg₂ (fun a d : EReal => a * d) ?_ ?_) ?_)
  · exact (Blocks.iblk0_0_apply V c t b hb (0 : Fin 1) r k).trans (congrFun h0 _)
  · exact (Blocks.iblk0_1_apply V c t e k).trans (congrFun h4 _)
  · exact (Blocks.iblk0_2_apply V c t (0 : Fin 1) e).trans ((congrFun hb5 _).trans (shapeCast_a_1a_apply x5 shapeCasts_S1024_S1x1024 (0 : Fin 1) e))

/-- After region 1 its output array is the array program's second projection of the arrays the region found. -/
theorem region1_array (c : Dev nD) (x1 : FVec Ideal S32x1024x1024 .f32) (x6 : FVec Ideal S1024x1024 .f32) (x7 : FVec Ideal S1024 .f32)
    (h1 : V c main_arg1 = x1) (h6 : V c main_arg6 = x6) (hb7 : V c main_v1 = shapeCast S1x1024 x7 shapeCasts_S1024_S1x1024) :
    (dat1 V c).arrAt 3 cfg1.N = val_main_v9 (F := Ideal) x1 x6 x7 := by
  refine Blocks.final1_3 V c _ fun t b hb u r e => ?_
  unfold out1_3
  rw [View.canon_unit_zero hz3]
  simp only [View.ld_unit_zero (S := S1x1024x1024) hz3, View.ld_unit_zero (S := S1024x1024) hz2, View.ld_unit_zero (S := S1x1024) hz2]
  refine (Points.project1_apply (iblk1 V c 0 t) (iblk1 V c 1 t) (iblk1 V c 2 t) u r e).trans ?_
  refine Eq.trans ?_ (Cert.ReferenceIdeal.Points.projection1_apply x1 x6 x7 b r e).symm
  refine congrArg Ideal.tanh (congrArg₂ (fun a d : EReal => a + d)
    (Finset.sum_congr rfl fun k _ => congrArg₂ (fun a d : EReal => a * d) ?_ ?_) ?_)
  · exact (Blocks.iblk1_0_apply V c t b hb (0 : Fin 1) r k).trans (congrFun h1 _)
  · exact (Blocks.iblk1_1_apply V c t e k).trans (congrFun h6 _)
  · exact (Blocks.iblk1_2_apply V c t (0 : Fin 1) e).trans ((congrFun hb7 _).trans (shapeCast_a_1a_apply x7 shapeCasts_S1024_S1x1024 (0 : Fin 1) e))

/-! ## The fused region, at one grid point -/

/-- The masked affinity the body forms at point t is batch element t of the array program's. -/
theorem point_affinity (c : Dev nD) (x0 : FVec Ideal S32x512x1024 .f32) (x1 : FVec Ideal S32x1024x1024 .f32) (x2 : FVec Ideal S32x512 .f32) (x3 : FVec Ideal S32x1024 .f32)
    (x4 : FVec Ideal S1024x1024 .f32) (x5 : FVec Ideal S1024 .f32) (x6 : FVec Ideal S1024x1024 .f32) (x7 : FVec Ideal S1024 .f32)
    (hct : V c main_v2 = val_main_v4 (F := Ideal) x0 x4 x5) (hpt : V c main_v3 = val_main_v9 (F := Ideal) x1 x6 x7)
    (hcf : V c main_v4 = x0) (hpf : V c main_v5 = x1)
    (hcm : V c main_v6 = shapeCast S32x1x512 x2 shapeCasts_S32x512_S32x1x512)
    (hpm : V c main_v7 = shapeCast S32x1x1024 x3 shapeCasts_S32x1024_S32x1x1024)
    (t : Fin cfg2.N) (b : Fin 32) (hb : b.val = t.val) (r : Fin 512) (p : Fin 1024) :
    k2_pay5 (iblk2 V c 0 t) (iblk2 V c 1 t) (iblk2 V c 4 t) (iblk2 V c 5 t) (ix2 r p) = val_main_v18 (F := Ideal) x0 x1 x2 x3 x4 x5 x6 x7 (ix3 b r p) := by
  refine (Points.affinity_apply (iblk2 V c 0 t) (iblk2 V c 1 t) (iblk2 V c 4 t) (iblk2 V c 5 t) r p).trans ?_
  refine Eq.trans ?_ (Cert.ReferenceIdeal.Points.affinity_apply x0 x1 x2 x3 x4 x5 x6 x7 b r p).symm
  refine Points.masked_congr _ _ (congrArg₂ (fun a d : EReal => a * d) ?_ ?_)
    (Finset.sum_congr rfl fun k _ => congrArg₂ (fun a d : EReal => a * d) ?_ ?_)
  · exact (Blocks.iblk2_4_apply V c t b hb (0 : Fin 1) (0 : Fin 1) r).trans
      ((congrFun hcm _).trans (Cert.MiddleUnitAxis.shapeCast_ab_a1b_apply x2 shapeCasts_S32x512_S32x1x512 b (0 : Fin 1) r))
  · exact (Blocks.iblk2_5_apply V c t b hb (0 : Fin 1) (0 : Fin 1) p).trans
      ((congrFun hpm _).trans (Cert.MiddleUnitAxis.shapeCast_ab_a1b_apply x3 shapeCasts_S32x1024_S32x1x1024 b (0 : Fin 1) p))
  · exact (Blocks.iblk2_0_apply V c t b hb (0 : Fin 1) r k).trans (congrFun hct _)
  · exact (Blocks.iblk2_1_apply V c t b hb (0 : Fin 1) p k).trans (congrFun hpt _)

/-- The first attention matrix at point t is batch element t of the array program's first attention array. -/
theorem point_attention_rows (c : Dev nD) (x0 : FVec Ideal S32x512x1024 .f32) (x1 : FVec Ideal S32x1024x1024 .f32) (x2 : FVec Ideal S32x512 .f32) (x3 : FVec Ideal S32x1024 .f32)
    (x4 : FVec Ideal S1024x1024 .f32) (x5 : FVec Ideal S1024 .f32) (x6 : FVec Ideal S1024x1024 .f32) (x7 : FVec Ideal S1024 .f32)
    (hct : V c main_v2 = val_main_v4 (F := Ideal) x0 x4 x5) (hpt : V c main_v3 = val_main_v9 (F := Ideal) x1 x6 x7)
    (hcf : V c main_v4 = x0) (hpf : V c main_v5 = x1)
    (hcm : V c main_v6 = shapeCast S32x1x512 x2 shapeCasts_S32x512_S32x1x512)
    (hpm : V c main_v7 = shapeCast S32x1x1024 x3 shapeCasts_S32x1024_S32x1x1024)
    (t : Fin cfg2.N) (b : Fin 32) (hb : b.val = t.val) (r : Fin 512) (p : Fin 1024) :
    k2_pay6 (iblk2 V c 0 t) (iblk2 V c 1 t) (iblk2 V c 4 t) (iblk2 V c 5 t) (ix2 r p) = val_main_v29 (F := Ideal) x0 x1 x2 x3 x4 x5 x6 x7 (ix3 b r p) := by
  refine (Points.attention_rows_apply (iblk2 V c 0 t) (iblk2 V c 1 t) (iblk2 V c 4 t) (iblk2 V c 5 t) r p).trans ?_
  refine Eq.trans ?_ (Cert.ReferenceIdeal.Points.attention_rows_apply x0 x1 x2 x3 x4 x5 x6 x7 b r p).symm
  exact congrArg (fun f => softmaxRow f p) (funext fun q => point_affinity V c x0 x1 x2 x3 x4 x5 x6 x7 hct hpt hcf hpf hcm hpm t b hb r q)

/-- The second attention matrix at point t is batch element t of the array program's second attention array. -/
theorem point_attention_columns (c : Dev nD) (x0 : FVec Ideal S32x512x1024 .f32) (x1 : FVec Ideal S32x1024x1024 .f32) (x2 : FVec Ideal S32x512 .f32) (x3 : FVec Ideal S32x1024 .f32)
    (x4 : FVec Ideal S1024x1024 .f32) (x5 : FVec Ideal S1024 .f32) (x6 : FVec Ideal S1024x1024 .f32) (x7 : FVec Ideal S1024 .f32)
    (hct : V c main_v2 = val_main_v4 (F := Ideal) x0 x4 x5) (hpt : V c main_v3 = val_main_v9 (F := Ideal) x1 x6 x7)
    (hcf : V c main_v4 = x0) (hpf : V c main_v5 = x1)
    (hcm : V c main_v6 = shapeCast S32x1x512 x2 shapeCasts_S32x512_S32x1x512)
    (hpm : V c main_v7 = shapeCast S32x1x1024 x3 shapeCasts_S32x1024_S32x1x1024)
    (t : Fin cfg2.N) (b : Fin 32) (hb : b.val = t.val) (p : Fin 1024) (r : Fin 512) :
    k2_pay2 (k2_pay5 (iblk2 V c 0 t) (iblk2 V c 1 t) (iblk2 V c 4 t) (iblk2 V c 5 t)) (ix2 p r) = val_main_v41 (F := Ideal) x0 x1 x2 x3 x4 x5 x6 x7 (ix3 b p r) := by
  refine (Points.attention_columns_apply (k2_pay5 (iblk2 V c 0 t) (iblk2 V c 1 t) (iblk2 V c 4 t) (iblk2 V c 5 t)) p r).trans ?_
  refine Eq.trans ?_ (Cert.ReferenceIdeal.Points.attention_columns_apply x0 x1 x2 x3 x4 x5 x6 x7 b p r).symm
  exact congrArg (fun f => softmaxRow f r) (funext fun q => point_affinity V c x0 x1 x2 x3 x4 x5 x6 x7 hct hpt hcf hpf hcm hpm t b hb q p)

/-! ## The fused region's four output arrays -/

/-- The first attention array. -/
theorem region2_attention_rows (c : Dev nD) (x0 : FVec Ideal S32x512x1024 .f32) (x1 : FVec Ideal S32x1024x1024 .f32) (x2 : FVec Ideal S32x512 .f32) (x3 : FVec Ideal S32x1024 .f32)
    (x4 : FVec Ideal S1024x1024 .f32) (x5 : FVec Ideal S1024 .f32) (x6 : FVec Ideal S1024x1024 .f32) (x7 : FVec Ideal S1024 .f32)
    (hct : V c main_v2 = val_main_v4 (F := Ideal) x0 x4 x5) (hpt : V c main_v3 = val_main_v9 (F := Ideal) x1 x6 x7)
    (hcf : V c main_v4 = x0) (hpf : V c main_v5 = x1)
    (hcm : V c main_v6 = shapeCast S32x1x512 x2 shapeCasts_S32x512_S32x1x512)
    (hpm : V c main_v7 = shapeCast S32x1x1024 x3 shapeCasts_S32x1024_S32x1x1024) :
    (dat2 V c).arrAt 8 cfg2.N = val_main_v29 (F := Ideal) x0 x1 x2 x3 x4 x5 x6 x7 := by
  refine Blocks.final2_8 V c _ fun t b hb u r p => ?_
  unfold out2_8
  rw [View.canon_unit_zero hz3]
  simp only [View.ld_unit_zero (S := S1x512x1024) hz3, View.ld_unit_zero (S := S1x1024x1024) hz3, View.ld_unit_zero (S := S1x1x512) hz3,
    View.ld_unit_zero (S := S1x1x1024) hz3]
  refine (Points.stored_attention_rows_apply (iblk2 V c 0 t) (iblk2 V c 1 t) (iblk2 V c 4 t) (iblk2 V c 5 t) u r p).trans ?_
  exact point_attention_rows V c x0 x1 x2 x3 x4 x5 x6 x7 hct hpt hcf hpf hcm hpm t b hb r p

/-- The second attention array. -/
theorem region2_attention_columns (c : Dev nD) (x0 : FVec Ideal S32x512x1024 .f32) (x1 : FVec Ideal S32x1024x1024 .f32) (x2 : FVec Ideal S32x512 .f32) (x3 : FVec Ideal S32x1024 .f32)
    (x4 : FVec Ideal S1024x1024 .f32) (x5 : FVec Ideal S1024 .f32) (x6 : FVec Ideal S1024x1024 .f32) (x7 : FVec Ideal S1024 .f32)
    (hct : V c main_v2 = val_main_v4 (F := Ideal) x0 x4 x5) (hpt : V c main_v3 = val_main_v9 (F := Ideal) x1 x6 x7)
    (hcf : V c main_v4 = x0) (hpf : V c main_v5 = x1)
    (hcm : V c main_v6 = shapeCast S32x1x512 x2 shapeCasts_S32x512_S32x1x512)
    (hpm : V c main_v7 = shapeCast S32x1x1024 x3 shapeCasts_S32x1024_S32x1x1024) :
    (dat2 V c).arrAt 9 cfg2.N = val_main_v41 (F := Ideal) x0 x1 x2 x3 x4 x5 x6 x7 := by
  refine Blocks.final2_9 V c _ fun t b hb u p r => ?_
  unfold out2_9
  rw [View.canon_unit_zero hz3]
  simp only [View.ld_unit_zero (S := S1x512x1024) hz3, View.ld_unit_zero (S := S1x1024x1024) hz3, View.ld_unit_zero (S := S1x1x512) hz3,
    View.ld_unit_zero (S := S1x1x1024) hz3]
  refine (Points.stored_attention_columns_apply (k2_pay5 (iblk2 V c 0 t) (iblk2 V c 1 t) (iblk2 V c 4 t) (iblk2 V c 5 t)) u p r).trans ?_
  exact point_attention_columns V c x0 x1 x2 x3 x4 x5 x6 x7 hct hpt hcf hpf hcm hpm t b hb p r

/-- The first attended array. -/
theorem region2_attended_rows (c : Dev nD) (x0 : FVec Ideal S32x512x1024 .f32) (x1 : FVec Ideal S32x1024x1024 .f32) (x2 : FVec Ideal S32x512 .f32) (x3 : FVec Ideal S32x1024 .f32)
    (x4 : FVec Ideal S1024x1024 .f32) (x5 : FVec Ideal S1024 .f32) (x6 : FVec Ideal S1024x1024 .f32) (x7 : FVec Ideal S1024 .f32)
    (hct : V c main_v2 = val_main_v4 (F := Ideal) x0 x4 x5) (hpt : V c main_v3 = val_main_v9 (F := Ideal) x1 x6 x7)
    (hcf : V c main_v4 = x0) (hpf : V c main_v5 = x1)
    (hcm : V c main_v6 = shapeCast S32x1x512 x2 shapeCasts_S32x512_S32x1x512)
    (hpm : V c main_v7 = shapeCast S32x1x1024 x3 shapeCasts_S32x1024_S32x1x1024) :
    (dat2 V c).arrAt 6 cfg2.N = val_main_v42 (F := Ideal) x0 x1 x2 x3 x4 x5 x6 x7 := by
  refine Blocks.final2_6 V c _ fun t b hb u r d => ?_
  unfold out2_6
  rw [View.canon_unit_zero hz3]
  simp only [View.ld_unit_zero (S := S1x512x1024) hz3, View.ld_unit_zero (S := S1x1024x1024) hz3, View.ld_unit_zero (S := S1x1x512) hz3,
    View.ld_unit_zero (S := S1x1x1024) hz3]
  refine (Points.stored_attended_rows_apply (k2_pay8 (iblk2 V c 0 t) (iblk2 V c 1 t) (iblk2 V c 4 t) (iblk2 V c 5 t) (iblk2 V c 3 t)) u r d).trans ?_
  refine (Points.attended_rows_apply (iblk2 V c 0 t) (iblk2 V c 1 t) (iblk2 V c 4 t) (iblk2 V c 5 t) (iblk2 V c 3 t) r d).trans ?_
  refine Eq.trans ?_ (Cert.ReferenceIdeal.Points.attended_rows_apply x0 x1 x2 x3 x4 x5 x6 x7 b r d).symm
  refine Finset.sum_congr rfl fun p _ => congrArg₂ (fun a e : EReal => a * e) ?_ ?_
  · exact point_attention_rows V c x0 x1 x2 x3 x4 x5 x6 x7 hct hpt hcf hpf hcm hpm t b hb r p
  · exact (Blocks.iblk2_3_apply V c t b hb (0 : Fin 1) p d).trans (congrFun hpf _)

/-- The second attended array. -/
theorem region2_attended_columns (c : Dev nD) (x0 : FVec Ideal S32x512x1024 .f32) (x1 : FVec Ideal S32x1024x1024 .f32) (x2 : FVec Ideal S32x512 .f32) (x3 : FVec Ideal S32x1024 .f32)
    (x4 : FVec Ideal S1024x1024 .f32) (x5 : FVec Ideal S1024 .f32) (x6 : FVec Ideal S1024x1024 .f32) (x7 : FVec Ideal S1024 .f32)
    (hct : V c main_v2 = val_main_v4 (F := Ideal) x0 x4 x5) (hpt : V c main_v3 = val_main_v9 (F := Ideal) x1 x6 x7)
    (hcf : V c main_v4 = x0) (hpf : V c main_v5 = x1)
    (hcm : V c main_v6 = shapeCast S32x1x512 x2 shapeCasts_S32x512_S32x1x512)
    (hpm : V c main_v7 = shapeCast S32x1x1024 x3 shapeCasts_S32x1024_S32x1x1024) :
    (dat2 V c).arrAt 7 cfg2.N = val_main_v43 (F := Ideal) x0 x1 x2 x3 x4 x5 x6 x7 := by
  refine Blocks.final2_7 V c _ fun t b hb u p d => ?_
  unfold out2_7
  rw [View.canon_unit_zero hz3]
  simp only [View.ld_unit_zero (S := S1x512x1024) hz3, View.ld_unit_zero (S := S1x1024x1024) hz3, View.ld_unit_zero (S := S1x1x512) hz3,
    View.ld_unit_zero (S := S1x1x1024) hz3]
  refine (Points.attended_columns_apply (k2_pay5 (iblk2 V c 0 t) (iblk2 V c 1 t) (iblk2 V c 4 t) (iblk2 V c 5 t)) (iblk2 V c 2 t) u p d).trans ?_
  refine Eq.trans ?_ (Cert.ReferenceIdeal.Points.attended_columns_apply x0 x1 x2 x3 x4 x5 x6 x7 b p d).symm
  refine Finset.sum_congr rfl fun r _ => congrArg₂ (fun a e : EReal => a * e) ?_ ?_
  · exact point_attention_columns V c x0 x1 x2 x3 x4 x5 x6 x7 hct hpt hcf hpf hcm hpm t b hb p r
  · exact (Blocks.iblk2_2_apply V c t b hb (0 : Fin 1) r d).trans (congrFun hcf _)

end Cert.KernelIdeal.Bridge

end
-- ==== Proof.KernelValue.lean ====
/-
  The four result arrays of the kernel program as stages of the array program at the launch arguments.

  The fused region is entered with the two projections in place: the first is what region 0's write-backs left, which is
  the array program's first projection of arguments 0, 4 and 5 (region 0 found arguments 0 and 4 as launched and the
  bias as one row); the second likewise from region 1 and arguments 1, 6 and 7.  The two feature arrays it reads are
  arguments 0 and 1 after a change of float format, which is the identity on the extended reals, and the two masks are
  arguments 2 and 3 with a unit axis inserted.  So each of its four output arrays is the corresponding stage of the array
  program at the launch arguments.
-/
import proofs.«148050_j57140244906000_2_alg».proof.Proof.KernelRun
import proofs.«148050_j57140244906000_2_alg».proof.Proof.Bridge

noncomputable section

namespace Cert.KernelIdeal.KValue

open Cert.KernelIdeal Cert.KernelIdeal.Gen Idealize.ShloMosaic Idealize.ShloMosaic.TcCoe Idealize.SL.Sem
open Cert.ReferenceIdeal.Read (val_main_v4 val_main_v9 val_main_v29 val_main_v41 val_main_v42 val_main_v43)

variable (m : (ℓ : Loc nD τ sig) → Buf (Elt Ideal) ℓ) (ρ : Dev nD → PrngReg) (c : Dev nD)

/-- The first projection, as the fused region finds it. -/
theorem comp_projection_array :
    V4 m ρ c main_v2 = val_main_v4 (F := Ideal) (m ((c.tc : Thread nD τ).loc main_arg0)) (m ((c.tc : Thread nD τ).loc main_arg4)) (m ((c.tc : Thread nD τ).loc main_arg5)) :=
  (KRun.V4_v2 m ρ c).trans (Bridge.region0_array (V1 m ρ) c (m ((c.tc : Thread nD τ).loc main_arg0)) (m ((c.tc : Thread nD τ).loc main_arg4)) (m ((c.tc : Thread nD τ).loc main_arg5))
    (KRun.V1_arg0 m ρ c) (KRun.V1_arg4 m ρ c) (KRun.V1_v0 m ρ c))

/-- The second projection, as the fused region finds it. -/
theorem prot_projection_array :
    V4 m ρ c main_v3 = val_main_v9 (F := Ideal) (m ((c.tc : Thread nD τ).loc main_arg1)) (m ((c.tc : Thread nD τ).loc main_arg6)) (m ((c.tc : Thread nD τ).loc main_arg7)) :=
  (KRun.V4_v3 m ρ c).trans (Bridge.region1_array (V2 m ρ) c (m ((c.tc : Thread nD τ).loc main_arg1)) (m ((c.tc : Thread nD τ).loc main_arg6)) (m ((c.tc : Thread nD τ).loc main_arg7))
    (KRun.V2_arg1 m ρ c) (KRun.V2_arg6 m ρ c) (KRun.V2_v1 m ρ c))

/-- Result 0: the first attended array. -/
theorem attended_rows_array : (dat2 (V4 m ρ) c).arrAt 6 cfg2.N = val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  Bridge.region2_attended_rows (V4 m ρ) c (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (comp_projection_array m ρ c) (prot_projection_array m ρ c) (KRun.V4_v4 m ρ c) (KRun.V4_v5 m ρ c) (KRun.V4_v6 m ρ c) (KRun.V4_v7 m ρ c)

/-- Result 1: the second attended array. -/
theorem attended_columns_array : (dat2 (V4 m ρ) c).arrAt 7 cfg2.N = val_main_v43 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  Bridge.region2_attended_columns (V4 m ρ) c (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (comp_projection_array m ρ c) (prot_projection_array m ρ c) (KRun.V4_v4 m ρ c) (KRun.V4_v5 m ρ c) (KRun.V4_v6 m ρ c) (KRun.V4_v7 m ρ c)

/-- Result 2: the first attention array. -/
theorem attention_rows_array : (dat2 (V4 m ρ) c).arrAt 8 cfg2.N = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  Bridge.region2_attention_rows (V4 m ρ) c (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (comp_projection_array m ρ c) (prot_projection_array m ρ c) (KRun.V4_v4 m ρ c) (KRun.V4_v5 m ρ c) (KRun.V4_v6 m ρ c) (KRun.V4_v7 m ρ c)

/-- Result 3: the second attention array. -/
theorem attention_columns_array : (dat2 (V4 m ρ) c).arrAt 9 cfg2.N = val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  Bridge.region2_attention_columns (V4 m ρ) c (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (comp_projection_array m ρ c) (prot_projection_array m ρ c) (KRun.V4_v4 m ρ c) (KRun.V4_v5 m ρ c) (KRun.V4_v6 m ρ c) (KRun.V4_v7 m ρ c)

end Cert.KernelIdeal.KValue

end
-- ==== Proof.lean ====
/-
  The kernel program and the array program compute the same four arrays on the extended reals.

  Both programs form two projections tanh(x wᵀ + b), their masked affinity (−1e9 where the product of the two masks is
  zero), the softmax of the affinity along each of its two axes, and the two attended arrays (each attention array
  times the other side's features).  The kernel program does it in three pipelined regions, one batch element per grid
  point, with changes of float format that are the identity on the extended reals; the array program in whole-array
  operations.  The three frames are the programs' runs with the results dropped.  The idealization rewrote no operation,
  so there is nothing to preserve beyond the program text.  For the algebraic claim each result of the kernel program's
  run is read at the last segment boundary, where it is what the fused region's write-backs left; that array is, index by
  index, the corresponding stage of the array program at the launch arguments, and the array program's run ends with each
  result at that same stage of arguments that agree.  The equalities are between the same operations applied in the same
  order up to the order of finite sums, so the precondition is never opened.
-/
import proofs.«148050_j57140244906000_2_alg».proof.Defs
import proofs.«148050_j57140244906000_2_alg».proof.Proof.Gen.Kernel
import proofs.«148050_j57140244906000_2_alg».proof.Proof.Gen.Kernel.Skeleton
import proofs.«148050_j57140244906000_2_alg».proof.Proof.Gen.Kernel.Launch
import proofs.«148050_j57140244906000_2_alg».proof.Proof.Gen.Kernel.Points
import proofs.«148050_j57140244906000_2_alg».proof.Proof.Gen.Kernel.Frame
import proofs.«148050_j57140244906000_2_alg».proof.Proof.Gen.KernelIdeal
import proofs.«148050_j57140244906000_2_alg».proof.Proof.Gen.KernelIdeal.Skeleton
import proofs.«148050_j57140244906000_2_alg».proof.Proof.Gen.KernelIdeal.Launch
import proofs.«148050_j57140244906000_2_alg».proof.Proof.Gen.KernelIdeal.Points
import proofs.«148050_j57140244906000_2_alg».proof.Proof.Gen.KernelIdeal.Frame
import proofs.«148050_j57140244906000_2_alg».proof.Proof.Gen.ReferenceIdeal
import proofs.«148050_j57140244906000_2_alg».proof.Proof.Gen.ReferenceIdeal.Run
import proofs.«148050_j57140244906000_2_alg».proof.Proof.Gen.ReferenceIdeal.Read
import proofs.«148050_j57140244906000_2_alg».proof.Proof.Gen.Pre_finite_inputs
import proofs.«148050_j57140244906000_2_alg».proof.Proof.KernelRun
import proofs.«148050_j57140244906000_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The array program's run, with its four results dropped. -/
theorem frame_reference_ideal : Cert.frame_ReferenceIdeal := fun m ρ _ =>
  (θ_run Cert.ReferenceIdeal.defs _ _).mono (fun _ h c => (h c).2.2.2.2) (Cert.ReferenceIdeal.Value.run (F := Ideal) m ρ)

/-- The idealization rewrote no operation. -/
theorem preserves : Cert.preserves_Kernel_KernelIdeal := trivial

/-- Both runs end with the four results at the same stages of arguments that agree. -/
theorem algebraic : Cert.algebraic_KernelIdeal_ReferenceIdeal := by
  intro m ρ m' ρ' _ hagree
  refine ⟨fun c => Cert.ReferenceIdeal.Read.val_main_v42 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.Read.val_main_v43 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.Read.val_main_v29 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.Read.val_main_v41 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.KRun.run_results m ρ)
    obtain ⟨h0, h1, h2, h3, hargs⟩ := h c
    exact ⟨h0.trans (Cert.KernelIdeal.KValue.attended_rows_array m ρ c),
      h1.trans (Cert.KernelIdeal.KValue.attended_columns_array m ρ c),
      h2.trans (Cert.KernelIdeal.KValue.attention_rows_array m ρ c),
      h3.trans (Cert.KernelIdeal.KValue.attention_columns_array m ρ c), hargs⟩
  · refine (θ_run Cert.ReferenceIdeal.defs _ _).mono (fun r h c => ?_) (Cert.ReferenceIdeal.Value.run (F := Ideal) m' ρ')
    obtain ⟨h0, h1, h2, h3, hargs⟩ := h c
    obtain ⟨a0, a1, a2, a3, a4, a5, a6, a7⟩ := hagree c
    refine ⟨h0.trans ?_, h1.trans ?_, h2.trans ?_, h3.trans ?_, hargs⟩
    · rw [Cert.ReferenceIdeal.Read.val_main_v42_eq, a0, a1, a2, a3, a4, a5, a6, a7]
    · rw [Cert.ReferenceIdeal.Read.val_main_v43_eq, a0, a1, a2, a3, a4, a5, a6, a7]
    · rw [Cert.ReferenceIdeal.Read.val_main_v29_eq, a0, a1, a2, a3, a4, a5, a6, a7]
    · rw [Cert.ReferenceIdeal.Read.val_main_v41_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
